-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S128x128 : Shape := ⟨2, ![128, 128]⟩
abbrev S1x1x128 : Shape := ⟨3, ![1, 1, 128]⟩
abbrev S1 : Shape := ⟨1, ![1]⟩
abbrev S640000 : Shape := ⟨1, ![640000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S1x1x128 : S_.BroadcastsInDim S1x1x128 (![] : Fin 0 → Fin S1x1x128.rank)
  reducesTo_S1x1x128_S_d0_1_2 : S1x1x128.ReducesTo [0, 1, 2] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S10000x128 .f32) (main_arg1 : FVec F S128x128 .f32) (main_arg2 : FVec F S1x1x128 .f32) (main_arg3 : FVec F S1 .f32) (main_arg4 : IVec S640000 32) (main_arg5 : IVec S640000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S1x1x128 .f32 := Host.absf main_arg2
  let main_cst_2 : FVec F S_ .f32 := constant S_ .f32 0x7F800000#32
  let main_v10 : FVec F S1x1x128 .f32 := broadcastInDim S1x1x128 ![] bcast_S_S1x1x128 main_cst_2
  let main_v11 : IVec S1x1x128 1 := cmpf .olt main_v9 main_v10
  let main_c_3 : IVec S_ 1 := constantI S_ 1 1#1
  let main_v12 : IVec S_ 1 := (fun x v => Host.reduce IntOp.andi x v reducesTo_S1x1x128_S_d0_1_2 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S10000x128 : Shape := ⟨2, ![10000, 128]⟩
abbrev S128x128 : Shape := ⟨2, ![128, 128]⟩
abbrev S1x1x128 : Shape := ⟨3, ![1, 1, 128]⟩
abbrev S1 : Shape := ⟨1, ![1]⟩
abbrev S640000 : Shape := ⟨1, ![640000]⟩
abbrev S1000x128 : Shape := ⟨2, ![1000, 128]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S3200x128 : Shape := ⟨2, ![3200, 128]⟩
abbrev S3200x1 : Shape := ⟨2, ![3200, 1]⟩
abbrev S3200 : Shape := ⟨1, ![3200]⟩
abbrev S10000 : Shape := ⟨1, ![10000]⟩
abbrev S10000x1 : Shape := ⟨2, ![10000, 1]⟩

abbrev nBuf : Space → Nat
  | .hbm => 64
  | .vmem => 12
  | .smem => 0
  | _ => 0

abbrev bufTy : (tb : Table) → Fin (tcTables nBuf tb) → BufTy
  | .hbm, ⟨0, _⟩ => ⟨S10000x128, .f32⟩
  | .hbm, ⟨1, _⟩ => ⟨S128x128, .f32⟩
  | .hbm, ⟨2, _⟩ => ⟨S1x1x128, .f32⟩
  | .hbm, ⟨3, _⟩ => ⟨S1, .f32⟩
  | .hbm, ⟨4, _⟩ => ⟨S640000, .i32⟩
  | .hbm, ⟨5, _⟩ => ⟨S640000, .i32⟩
  | .hbm, ⟨6, _⟩ => ⟨S128x128, .f32⟩
  | .hbm, ⟨7, _⟩ => ⟨S10000x128, .f32⟩
  | .hbm, ⟨8, _⟩ => ⟨S10000x128, .bf16⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .bf16⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .bf16⟩
  | .hbm, ⟨27, _⟩ => ⟨S1x128, .f32⟩
  | .hbm, ⟨28, _⟩ => ⟨S640000x1, .f32⟩
  | .hbm, ⟨29, _⟩ => ⟨S640000, .f32⟩
  | .hbm, ⟨30, _⟩ => ⟨S_, .i32⟩
  | .hbm, ⟨31, _⟩ => ⟨S640000, .i32⟩
  | .hbm, ⟨32, _⟩ => ⟨S640000, .i1⟩
  | .hbm, ⟨33, _⟩ => ⟨S_, .i32⟩
  | .hbm, ⟨34, _⟩ => ⟨S640000, .i32⟩
  | .hbm, ⟨35, _⟩ => ⟨S640000, .i32⟩
  | .hbm, ⟨36, _⟩ => ⟨S640000, .i32⟩
  | .hbm, ⟨37, _⟩ => ⟨S640000x1, .i32⟩
  | .hbm, ⟨38, _⟩ => ⟨S640000x128, .f32⟩
  | .hbm, ⟨39, _⟩ => ⟨S640000x1, .f32⟩
  | .hbm, ⟨40, _⟩ => ⟨S640000x128, .f32⟩
  | .hbm, ⟨41, _⟩ => ⟨S640000x128, .f32⟩
  | .hbm, ⟨42, _⟩ => ⟨S_, .f32⟩
  | .hbm, ⟨43, _⟩ => ⟨S10000x128, .f32⟩
  | .hbm, ⟨44, _⟩ => ⟨S640000x1, .i32⟩
  | .hbm, ⟨45, _⟩ => ⟨S10000x128, .f32⟩
  | .hbm, ⟨46, _⟩ => ⟨S_, .f32⟩
  | .hbm, ⟨47, _⟩ => ⟨S640000, .f32⟩
  | .hbm, ⟨48, _⟩ => ⟨S_, .f32⟩
  | .hbm, ⟨49, _⟩ => ⟨S10000, .f32⟩
  | .hbm, ⟨50, _⟩ => ⟨S640000x1, .i32⟩
  | .hbm, ⟨51, _⟩ => ⟨S10000, .f32⟩
  | .hbm, ⟨52, _⟩ => ⟨S_, .f32⟩
  | .hbm, ⟨53, _⟩ => ⟨S10000, .f32⟩
  | .hbm, ⟨54, _⟩ => ⟨S10000, .f32⟩
  | .hbm, ⟨55, _⟩ => ⟨S10000x1, .f32⟩
  | .hbm, ⟨56, _⟩ => ⟨S10000x128, .f32⟩
  | .hbm, ⟨57, _⟩ => ⟨S10000x128, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S10000x128, .f32⟩
  | .hbm, ⟨62, _⟩ => ⟨S10000x128, .f32⟩
  | .hbm, ⟨63, _⟩ => ⟨S10000x128, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1000x128, .f32⟩
  | .local _ .vmem, ⟨4, _⟩ => ⟨S1000x128, .f32⟩
  | .local _ .vmem, ⟨5, _⟩ => ⟨S3200x128, .bf16⟩
  | .local _ .vmem, ⟨6, _⟩ => ⟨S3200x128, .bf16⟩
  | .local _ .vmem, ⟨7, _⟩ => ⟨S3200x128, .bf16⟩
  | .local _ .vmem, ⟨8, _⟩ => ⟨S3200x128, .bf16⟩
  | .local _ .vmem, ⟨9, _⟩ => ⟨S1x128, .f32⟩
  | .local _ .vmem, ⟨10, _⟩ => ⟨S3200x1, .f32⟩
  | .local _ .vmem, ⟨11, _⟩ => ⟨S3200x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S3200x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S128x128_S128x128_1_0 : S128x128.Transposes [1, 0] S128x128
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S640000 : S_.BroadcastsInDim S640000 (![] : Fin 0 → Fin S640000.rank)
  bcast_S640000_S640000x1_0 : S640000.BroadcastsInDim S640000x1 (![0] : Fin 1 → Fin S640000x1.rank)
  shapeCasts_S1x1x128_S1x128 : S1x1x128.ShapeCasts S1x128
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  reduces_S3200x128_S3200 : S3200x128.Reduces [1] S3200
  shapeCasts_S3200_S3200x1 : S3200.ShapeCasts S3200x1
  inb_S3200x1_S3200x1_0_0 : ∀ a, (![0, 0] : Fin 2 → Nat) a + S3200x1.size a ≤ S3200x1.size a
  h_S3200x1 : 0 < S3200x1.numel
  shapeCasts_S640000x1_S640000 : S640000x1.ShapeCasts S640000
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  shapeCasts_S1_S_ : S1.ShapeCasts S_
  dot_S1000x128_S128x128_S1000x128_1_0_0_1_n_n_wf : DotDims.WF S1000x128 S128x128 S1000x128 [1] [0] [0] [1] [] []
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S10000x128.size a
  hwx0_2 : ∀ i : grid0.Coords, EltTy.bits .f32 = 32 ∨ (Rect.block (s := S10000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x128.size a ≤ S640000x128.size a
  hwx1_0 : ∀ i : grid1.Coords, EltTy.bits .bf16 = 32 ∨ (Rect.block (s := S640000x128) S3200x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x128.size a ≤ S640000x128.size a
  hwx1_1 : ∀ i : grid1.Coords, EltTy.bits .bf16 = 32 ∨ (Rect.block (s := S640000x128) S3200x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3200x1.size a ≤ S640000x1.size a
  hwx1_3 : ∀ i : grid1.Coords, EltTy.bits .f32 = 32 ∨ (Rect.block (s := S640000x1) S3200x1.size (cc1_transform_3 i) (hinb1_3 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v9) S3200x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S3200x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S3200x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x128 : Shape := ⟨2, ![10000, 128]⟩
abbrev S128x128 : Shape := ⟨2, ![128, 128]⟩
abbrev S1x1x128 : Shape := ⟨3, ![1, 1, 128]⟩
abbrev S1 : Shape := ⟨1, ![1]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S128 : Shape := ⟨1, ![128]⟩
abbrev S1x128 : Shape := ⟨2, ![1, 128]⟩
abbrev S10000 : Shape := ⟨1, ![10000]⟩
abbrev S10000x1 : Shape := ⟨2, ![10000, 1]⟩

abbrev nBuf : Space → Nat
  | .hbm => 95
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S128x128, .f32⟩
  | .hbm, ⟨2, _⟩ => ⟨S1x1x128, .f32⟩
  | .hbm, ⟨3, _⟩ => ⟨S1, .f32⟩
  | .hbm, ⟨4, _⟩ => ⟨S640000, .i32⟩
  | .hbm, ⟨5, _⟩ => ⟨S640000, .i32⟩
  | .hbm, ⟨6, _⟩ => ⟨S128x128, .f32⟩
  | .hbm, ⟨7, _⟩ => ⟨S10000x128, .f32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x128, .f32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .f32⟩
  | .hbm, ⟨26, _⟩ => ⟨S128, .f32⟩
  | .hbm, ⟨27, _⟩ => ⟨S640000x128, .f32⟩
  | .hbm, ⟨28, _⟩ => ⟨S_, .f32⟩
  | .hbm, ⟨29, _⟩ => ⟨S_, .f32⟩
  | .hbm, ⟨30, _⟩ => ⟨S640000x128, .f32⟩
  | .hbm, ⟨31, _⟩ => ⟨S640000x128, .i1⟩
  | .hbm, ⟨32, _⟩ => ⟨S_, .f32⟩
  | .hbm, ⟨33, _⟩ => ⟨S640000x128, .f32⟩
  | .hbm, ⟨34, _⟩ => ⟨S640000x128, .f32⟩
  | .hbm, ⟨35, _⟩ => ⟨S640000x128, .f32⟩
  | .hbm, ⟨36, _⟩ => ⟨S1x128, .f32⟩
  | .hbm, ⟨37, _⟩ => ⟨S640000x128, .f32⟩
  | .hbm, ⟨38, _⟩ => ⟨S640000x128, .f32⟩
  | .hbm, ⟨39, _⟩ => ⟨S_, .f32⟩
  | .hbm, ⟨40, _⟩ => ⟨S640000, .f32⟩
  | .hbm, ⟨41, _⟩ => ⟨S640000x128, .f32⟩
  | .hbm, ⟨42, _⟩ => ⟨S_, .f32⟩
  | .hbm, ⟨43, _⟩ => ⟨S640000, .f32⟩
  | .hbm, ⟨44, _⟩ => ⟨S640000, .f32⟩
  | .hbm, ⟨45, _⟩ => ⟨S640000, .f32⟩
  | .hbm, ⟨46, _⟩ => ⟨S_, .f32⟩
  | .hbm, ⟨47, _⟩ => ⟨S640000, .f32⟩
  | .hbm, ⟨48, _⟩ => ⟨S640000, .f32⟩
  | .hbm, ⟨49, _⟩ => ⟨S_, .f32⟩
  | .hbm, ⟨50, _⟩ => ⟨S640000, .f32⟩
  | .hbm, ⟨51, _⟩ => ⟨S640000, .f32⟩
  | .hbm, ⟨52, _⟩ => ⟨S640000, .f32⟩
  | .hbm, ⟨53, _⟩ => ⟨S640000, .f32⟩
  | .hbm, ⟨54, _⟩ => ⟨S640000, .f32⟩
  | .hbm, ⟨55, _⟩ => ⟨S_, .f32⟩
  | .hbm, ⟨56, _⟩ => ⟨S640000, .f32⟩
  | .hbm, ⟨57, _⟩ => ⟨S640000, .f32⟩
  | .hbm, ⟨58, _⟩ => ⟨S_, .f32⟩
  | .hbm, ⟨59, _⟩ => ⟨S640000, .f32⟩
  | .hbm, ⟨60, _⟩ => ⟨S640000, .f32⟩
  | .hbm, ⟨61, _⟩ => ⟨S_, .i32⟩
  | .hbm, ⟨62, _⟩ => ⟨S640000, .i32⟩
  | .hbm, ⟨63, _⟩ => ⟨S640000, .i1⟩
  | .hbm, ⟨64, _⟩ => ⟨S_, .i32⟩
  | .hbm, ⟨65, _⟩ => ⟨S640000, .i32⟩
  | .hbm, ⟨66, _⟩ => ⟨S640000, .i32⟩
  | .hbm, ⟨67, _⟩ => ⟨S640000, .i32⟩
  | .hbm, ⟨68, _⟩ => ⟨S640000x1, .i32⟩
  | .hbm, ⟨69, _⟩ => ⟨S640000x128, .f32⟩
  | .hbm, ⟨70, _⟩ => ⟨S640000x1, .f32⟩
  | .hbm, ⟨71, _⟩ => ⟨S640000x128, .f32⟩
  | .hbm, ⟨72, _⟩ => ⟨S640000x128, .f32⟩
  | .hbm, ⟨73, _⟩ => ⟨S_, .f32⟩
  | .hbm, ⟨74, _⟩ => ⟨S10000x128, .f32⟩
  | .hbm, ⟨75, _⟩ => ⟨S640000x1, .i32⟩
  | .hbm, ⟨76, _⟩ => ⟨S10000x128, .f32⟩
  | .hbm, ⟨77, _⟩ => ⟨S_, .f32⟩
  | .hbm, ⟨78, _⟩ => ⟨S640000, .f32⟩
  | .hbm, ⟨79, _⟩ => ⟨S_, .f32⟩
  | .hbm, ⟨80, _⟩ => ⟨S10000, .f32⟩
  | .hbm, ⟨81, _⟩ => ⟨S640000x1, .i32⟩
  | .hbm, ⟨82, _⟩ => ⟨S10000, .f32⟩
  | .hbm, ⟨83, _⟩ => ⟨S_, .f32⟩
  | .hbm, ⟨84, _⟩ => ⟨S10000, .f32⟩
  | .hbm, ⟨85, _⟩ => ⟨S10000, .f32⟩
  | .hbm, ⟨86, _⟩ => ⟨S10000x1, .f32⟩
  | .hbm, ⟨87, _⟩ => ⟨S10000x128, .f32⟩
  | .hbm, ⟨88, _⟩ => ⟨S10000x128, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S10000x128, .f32⟩
  | .hbm, ⟨93, _⟩ => ⟨S10000x128, .f32⟩
  | .hbm, ⟨94, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_c_10 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_11 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_12 : Ref sig .tc := ⟨.hbm, 77, rfl⟩
abbrev main_v51 : Ref sig .tc := ⟨.hbm, 78, rfl⟩
abbrev main_cst_13 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_14 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_15 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩

abbrev nD : Nat := 1
abbrev τ : Topo := Topo.v7x

variable {F : FTy → Type} [FloatOps F]

class Facts₀ : Prop where
  transposes_S128x128_S128x128_1_0 : S128x128.Transposes [1, 0] S128x128
  bcast_S_S640000 : S_.BroadcastsInDim S640000 (![] : Fin 0 → Fin S640000.rank)
  bcast_S640000_S640000x1_0 : S640000.BroadcastsInDim S640000x1 (![0] : Fin 1 → Fin S640000x1.rank)
  shapeCasts_S1x1x128_S128 : S1x1x128.ShapeCasts S128
  bcast_S_S640000x128 : S_.BroadcastsInDim S640000x128 (![] : Fin 0 → Fin S640000x128.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  reducesTo_S640000x128_S640000_d1 : S640000x128.ReducesTo [1] S640000
  h_S_ : 0 < S_.numel
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  shapeCasts_S1_S_ : S1.ShapeCasts S_
  dot_S10000x128_S128x128_S10000x128_1_0_0_1_n_n_wf : DotDims.WF S10000x128 S128x128 S10000x128 [1] [0] [0] [1] [] []
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf

class Facts : Prop extends Facts₀ where

variable [Facts]
-- ==== Proof.KRun.lean ====
/-
  The idealized kernel program's run with its result named: every weakly fair execution of @main ends with the
  result array at the last boundary's contents `W5` (the fold of the host stretches and the two regions' write-backs
  over the launch memory) and the six argument arrays as launched.
-/
import proofs.«179195_j20641612824581_2_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its five segments (host stretch, region, host stretch, region, host stretch): the final
    state holds every unscoped buffer at the last boundary's contents, so the result buffer at `W5` there and each
    argument at its launch contents. -/
theorem run_value : θ_run defs (onTc (τ := τ) (main (F := F))) ⟨m, fun _ => 0, ρ⟩ (fun r => ∀ c : Dev nD,
      r.2.mem ((c.tc : Thread nD τ).loc main_v46) = W5 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v46 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.KValue

end
-- ==== Proof.KChain.lean ====
/-
  The kernel program's host operations around its two regions, grouped into the same named functions of whole arrays as
  the reference's: an index wrapped from the end, the rows of a table at wrapped indices (of an f32 table, and of a table
  rounded to bf16), and the aggregation tail (1 + eps) · feat + (Σ_{dst = n} feat[src] · w) / max(deg, 1).
-/
import proofs.«179195_j20641612824581_2_alg».proof.KernelIdeal

noncomputable section

namespace Cert.KernelIdeal.KChain

open Cert.KernelIdeal Idealize.ShloMosaic
open Facts₀

variable {F : FTy → Type} [FloatOps F] [Facts]

/-- A negative node index counts from the end: ix < 0 ↦ ix + 10000. -/
def wrap (ix : (⟨S640000, .i32⟩ : BufTy).Contents (Elt F)) : (⟨S640000, .i32⟩ : BufTy).Contents (Elt F) :=
  (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
    ((cmpi .slt : (⟨S640000, .i32⟩ : BufTy).Contents (Elt F) → (⟨S640000, .i32⟩ : BufTy).Contents (Elt F) → (⟨S640000, .i1⟩ : BufTy).Contents (Elt F)) ix
      ((broadcastInDim S640000 ![] bcast_S_S640000 : (⟨S_, .i32⟩ : BufTy).Contents (Elt F) → (⟨S640000, .i32⟩ : BufTy).Contents (Elt F)) (constantI S_ 32 0#32)))
    ((addi : (⟨S640000, .i32⟩ : BufTy).Contents (Elt F) → (⟨S640000, .i32⟩ : BufTy).Contents (Elt F) → (⟨S640000, .i32⟩ : BufTy).Contents (Elt F)) ix
      ((broadcastInDim S640000 ![] bcast_S_S640000 : (⟨S_, .i32⟩ : BufTy).Contents (Elt F) → (⟨S640000, .i32⟩ : BufTy).Contents (Elt F)) (constantI S_ 32 10000#32)))
    ix

/-- The rows of a node table at the wrapped indices, one per edge. -/
def rows (x : (⟨S10000x128, .f32⟩ : BufTy).Contents (Elt F)) (ix : (⟨S640000, .i32⟩ : BufTy).Contents (Elt F)) : (⟨S640000x128, .f32⟩ : BufTy).Contents (Elt F) :=
  Host.gather gather_S10000x128_S640000x1_S640000x128_1_0_n_n_0_1_1128 x
    ((broadcastInDim S640000x1 ![0] bcast_S640000_S640000x1_0 : (⟨S640000, .i32⟩ : BufTy).Contents (Elt F) → (⟨S640000x1, .i32⟩ : BufTy).Contents (Elt F)) (wrap ix))

/-- The rows of a node table rounded to bf16 at the wrapped indices, one per edge. -/
def rows16 (x : (⟨S10000x128, .bf16⟩ : BufTy).Contents (Elt F)) (ix : (⟨S640000, .i32⟩ : BufTy).Contents (Elt F)) : (⟨S640000x128, .bf16⟩ : BufTy).Contents (Elt F) :=
  Host.gather gather_S10000x128_S640000x1_S640000x128_1_0_n_n_0_1_1128 x
    ((broadcastInDim S640000x1 ![0] bcast_S640000_S640000x1_0 : (⟨S640000, .i32⟩ : BufTy).Contents (Elt F) → (⟨S640000x1, .i32⟩ : BufTy).Contents (Elt F)) (wrap ix))

/-- The aggregation: messages feat[src] · w summed per destination, divided by max(in-degree, 1), plus (1 + eps) · feat. -/
def tail (a0 : (⟨S10000x128, .f32⟩ : BufTy).Contents (Elt F)) (a3 : (⟨S1, .f32⟩ : BufTy).Contents (Elt F)) (a4 a5 : (⟨S640000, .i32⟩ : BufTy).Contents (Elt F)) (w : (⟨S640000, .f32⟩ : BufTy).Contents (Elt F)) : (⟨S10000x128, .f32⟩ : BufTy).Contents (Elt F) :=
  (addf : (⟨S10000x128, .f32⟩ : BufTy).Contents (Elt F) → (⟨S10000x128, .f32⟩ : BufTy).Contents (Elt F) → (⟨S10000x128, .f32⟩ : BufTy).Contents (Elt F))
    ((mulf : (⟨S10000x128, .f32⟩ : BufTy).Contents (Elt F) → (⟨S10000x128, .f32⟩ : BufTy).Contents (Elt F) → (⟨S10000x128, .f32⟩ : BufTy).Contents (Elt F))
      ((broadcastInDim S10000x128 ![] bcast_S_S10000x128 : (⟨S_, .f32⟩ : BufTy).Contents (Elt F) → (⟨S10000x128, .f32⟩ : BufTy).Contents (Elt F))
        ((addf : (⟨S_, .f32⟩ : BufTy).Contents (Elt F) → (⟨S_, .f32⟩ : BufTy).Contents (Elt F) → (⟨S_, .f32⟩ : BufTy).Contents (Elt F)) (constant S_ .f32 0x3F800000#32) (shapeCast S_ a3 shapeCasts_S1_S_)))
      a0)
    ((Host.divf : (⟨S10000x128, .f32⟩ : BufTy).Contents (Elt F) → (⟨S10000x128, .f32⟩ : BufTy).Contents (Elt F) → (⟨S10000x128, .f32⟩ : BufTy).Contents (Elt F))
      (Host.scatterAdd scatter_S10000x128_S640000x1_S640000x128_1_0_0_1
        ((broadcastInDim S10000x128 ![] bcast_S_S10000x128 : (⟨S_, .f32⟩ : BufTy).Contents (Elt F) → (⟨S10000x128, .f32⟩ : BufTy).Contents (Elt F)) (constant S_ .f32 0x00000000#32))
        ((broadcastInDim S640000x1 ![0] bcast_S640000_S640000x1_0 : (⟨S640000, .i32⟩ : BufTy).Contents (Elt F) → (⟨S640000x1, .i32⟩ : BufTy).Contents (Elt F)) a5)
        ((mulf : (⟨S640000x128, .f32⟩ : BufTy).Contents (Elt F) → (⟨S640000x128, .f32⟩ : BufTy).Contents (Elt F) → (⟨S640000x128, .f32⟩ : BufTy).Contents (Elt F)) (rows a0 a4)
          ((broadcastInDim S640000x128 ![0, 1] bcast_S640000x1_S640000x128_0_1 : (⟨S640000x1, .f32⟩ : BufTy).Contents (Elt F) → (⟨S640000x128, .f32⟩ : BufTy).Contents (Elt F))
            ((broadcastInDim S640000x1 ![0] bcast_S640000_S640000x1_0 : (⟨S640000, .f32⟩ : BufTy).Contents (Elt F) → (⟨S640000x1, .f32⟩ : BufTy).Contents (Elt F)) w))))
      ((broadcastInDim S10000x128 ![0, 1] bcast_S10000x1_S10000x128_0_1 : (⟨S10000x1, .f32⟩ : BufTy).Contents (Elt F) → (⟨S10000x128, .f32⟩ : BufTy).Contents (Elt F))
        ((broadcastInDim S10000x1 ![0] bcast_S10000_S10000x1_0 : (⟨S10000, .f32⟩ : BufTy).Contents (Elt F) → (⟨S10000x1, .f32⟩ : BufTy).Contents (Elt F))
          ((maximumf : (⟨S10000, .f32⟩ : BufTy).Contents (Elt F) → (⟨S10000, .f32⟩ : BufTy).Contents (Elt F) → (⟨S10000, .f32⟩ : BufTy).Contents (Elt F))
            (Host.scatterAdd scatter_S10000_S640000x1_S640000_n_0_0_1
              ((broadcastInDim S10000 ![] bcast_S_S10000 : (⟨S_, .f32⟩ : BufTy).Contents (Elt F) → (⟨S10000, .f32⟩ : BufTy).Contents (Elt F)) (constant S_ .f32 0x00000000#32))
              ((broadcastInDim S640000x1 ![0] bcast_S640000_S640000x1_0 : (⟨S640000, .i32⟩ : BufTy).Contents (Elt F) → (⟨S640000x1, .i32⟩ : BufTy).Contents (Elt F)) a5)
              ((broadcastInDim S640000 ![] bcast_S_S640000 : (⟨S_, .f32⟩ : BufTy).Contents (Elt F) → (⟨S640000, .f32⟩ : BufTy).Contents (Elt F)) (constant S_ .f32 0x3F800000#32)))
            ((broadcastInDim S10000 ![] bcast_S_S10000 : (⟨S_, .f32⟩ : BufTy).Contents (Elt F) → (⟨S10000, .f32⟩ : BufTy).Contents (Elt F)) (constant S_ .f32 0x3F800000#32))))))

end Cert.KernelIdeal.KChain

end
-- ==== Proof.KHost.lean ====
/-
  The kernel program's three host stretches read back over ANY buffer contents `W` at their entry: before the first
  region the weight is transposed; between the regions the projection is rounded to bf16 and its rows gathered at the
  wrapped source and destination indices, and the attention vector is laid out as a row; after the second region the
  edge weights (a column, flattened) go through the aggregation tail. Argument buffers are written by none of them.
-/
import proofs.«179195_j20641612824581_2_alg».proof.Proof.Gen.KernelIdeal.Launch
import proofs.«179195_j20641612824581_2_alg».proof.Proof.KChain
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.SL.Sem Idealize.ShloMosaic.StableHlo
open Facts₀

variable {F : FTy → Type} [FloatOps F]
variable (W : Valuation τ sig (Elt F))

/-! ## Before region 0 -/

theorem pre_v0 : after hostOps0 W (Proc.devRef .tc main_v0 : DevRef τ sig)
    = transpose S128x128 [1, 0] (W (Proc.devRef .tc main_arg1 : DevRef τ sig)) Facts₀.transposes_S128x128_S128x128_1_0 := by
  after_results
theorem pre_arg0 : after hostOps0 W (Proc.devRef .tc main_arg0 : DevRef τ sig) = W (Proc.devRef .tc main_arg0 : DevRef τ sig) := by after_results
theorem pre_arg2 : after hostOps0 W (Proc.devRef .tc main_arg2 : DevRef τ sig) = W (Proc.devRef .tc main_arg2 : DevRef τ sig) := by after_results
theorem pre_arg3 : after hostOps0 W (Proc.devRef .tc main_arg3 : DevRef τ sig) = W (Proc.devRef .tc main_arg3 : DevRef τ sig) := by after_results
theorem pre_arg4 : after hostOps0 W (Proc.devRef .tc main_arg4 : DevRef τ sig) = W (Proc.devRef .tc main_arg4 : DevRef τ sig) := by after_results
theorem pre_arg5 : after hostOps0 W (Proc.devRef .tc main_arg5 : DevRef τ sig) = W (Proc.devRef .tc main_arg5 : DevRef τ sig) := by after_results

/-! ## Between the regions -/

theorem mid_v9 : after hostOps1 W (Proc.devRef .tc main_v9 : DevRef τ sig)
    = KChain.rows16 (truncf .bf16 (W (Proc.devRef .tc main_v1 : DevRef τ sig)) Facts₀.bitsLt_bf16_f32) (W (Proc.devRef .tc main_arg4 : DevRef τ sig)) := by
  after_results
  rfl
theorem mid_v16 : after hostOps1 W (Proc.devRef .tc main_v16 : DevRef τ sig)
    = KChain.rows16 (truncf .bf16 (W (Proc.devRef .tc main_v1 : DevRef τ sig)) Facts₀.bitsLt_bf16_f32) (W (Proc.devRef .tc main_arg5 : DevRef τ sig)) := by
  after_results
  rfl
theorem mid_v17 : after hostOps1 W (Proc.devRef .tc main_v17 : DevRef τ sig)
    = shapeCast S1x128 (W (Proc.devRef .tc main_arg2 : DevRef τ sig)) Facts₀.shapeCasts_S1x1x128_S1x128 := by
  after_results
  rfl
theorem mid_arg0 : after hostOps1 W (Proc.devRef .tc main_arg0 : DevRef τ sig) = W (Proc.devRef .tc main_arg0 : DevRef τ sig) := by after_results
theorem mid_arg3 : after hostOps1 W (Proc.devRef .tc main_arg3 : DevRef τ sig) = W (Proc.devRef .tc main_arg3 : DevRef τ sig) := by after_results
theorem mid_arg4 : after hostOps1 W (Proc.devRef .tc main_arg4 : DevRef τ sig) = W (Proc.devRef .tc main_arg4 : DevRef τ sig) := by after_results
theorem mid_arg5 : after hostOps1 W (Proc.devRef .tc main_arg5 : DevRef τ sig) = W (Proc.devRef .tc main_arg5 : DevRef τ sig) := by after_results

/-! ## After region 1 -/

theorem post_v46 : after hostOps2 W (Proc.devRef .tc main_v46 : DevRef τ sig)
    = KChain.tail (W (Proc.devRef .tc main_arg0 : DevRef τ sig)) (W (Proc.devRef .tc main_arg3 : DevRef τ sig)) (W (Proc.devRef .tc main_arg4 : DevRef τ sig)) (W (Proc.devRef .tc main_arg5 : DevRef τ sig))
        (shapeCast S640000 (W (Proc.devRef .tc main_v18 : DevRef τ sig)) Facts₀.shapeCasts_S640000x1_S640000) := by
  after_results_simp
  rfl

theorem post_arg0 : after hostOps2 W (Proc.devRef .tc main_arg0 : DevRef τ sig) = W (Proc.devRef .tc main_arg0 : DevRef τ sig) := by after_results_simp
theorem post_arg3 : after hostOps2 W (Proc.devRef .tc main_arg3 : DevRef τ sig) = W (Proc.devRef .tc main_arg3 : DevRef τ sig) := by after_results_simp
theorem post_arg4 : after hostOps2 W (Proc.devRef .tc main_arg4 : DevRef τ sig) = W (Proc.devRef .tc main_arg4 : DevRef τ sig) := by after_results_simp
theorem post_arg5 : after hostOps2 W (Proc.devRef .tc main_arg5 : DevRef τ sig) = W (Proc.devRef .tc main_arg5 : DevRef τ sig) := by after_results_simp

end Cert.KernelIdeal.KHost

end
-- ==== Proof.Region0.lean ====
/-
  Region 0 (the projection kernel) as one whole-array function: with the region entered at contents `V`, the output
  array ends at row n, column j holding Σ_k feat(n, k) · wt(k, j), where feat is the first window's array and wt the
  second's (the weight already transposed). Block t of the output is rows 1000·t … 1000·t + 999; the feature window
  moves with it, the weight window stays on its one block; the ten blocks tile the 10000 rows.
-/
import proofs.«179195_j20641612824581_2_alg».proof.Proof.Gen.KernelIdeal.Frame
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Row n of the features against column j of the (transposed) weight. -/
def dotAt (a : S10000x128.Idx → EReal) (wt : S128x128.Idx → EReal) (n : Fin 10000) (j : Fin 128) : EReal :=
  ∑ k : Fin 128, a (ix2 n k) * wt (ix2 k j)

/-- The projection as a whole array. -/
def G (a : S10000x128.Idx → EReal) (wt : S128x128.Idx → EReal) : S10000x128.Idx → EReal :=
  fun i => dotAt a wt (i 0) (i 1)

/-- The printed index maps over the ten points: the feature and output windows sit on block row t, column block 0; the
    weight window on its only block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the projection of the arrays as the region finds them, given the body's
    product read at an index (`hpay`). -/
theorem flushed_eq
    (hpay : ∀ (x0 : Vec Ideal S1000x128 .f32) (x1 : Vec Ideal S128x128 .f32) (r : Fin 1000) (j : Fin 128),
      k0_pay1 (F := Ideal) x0 x1 (ix2 r j) = ∑ k : Fin 128, x0 (ix2 r k) * x1 (ix2 k j))
    (c : Dev nD) (t : Fin cfg0.N) :
    (dat0 V c).flushed 2 t = ((cfg0.win 2).blk t).view.read (Elt Ideal) (G (V c main_arg0) (V c main_v0)) := by
  show (cfg0.win 2).cut (grid0.coords t) ((dat0 V c).after 2 t) = _
  rw [after0_2]
  unfold out0_2
  rw [View.canon_unit_zero hz]
  simp only [View.ld_unit_zero (S := S1000x128) hz, View.ld_unit_zero (S := S128x128) hz]
  obtain ⟨e0, e1, e2, e3, e4, e5⟩ := idx_facts t
  funext j
  obtain ⟨r, q, rfl⟩ : ∃ (r : Fin 1000) (q : Fin 128), j = ix2 r q := ⟨j 0, j 1, eq_ix2 j⟩
  refine (hpay _ _ r q).trans ?_
  show _ = dotAt (V c main_arg0) (V c main_v0) ((((cfg0.win 2).blk t).view.emb (ix2 r q)) 0) ((((cfg0.win 2).blk t).view.emb (ix2 r q)) 1)
  unfold dotAt
  refine Finset.sum_congr rfl fun k _ => ?_
  have h0 : ((cfg0.win 0).blk t).view.emb (ix2 r k) = ix2 ((((cfg0.win 2).blk t).view.emb (ix2 r q)) 0) k := by
    funext a; apply Fin.ext
    match a with
    | ⟨0, _⟩ => show win0_0.index t (0 : Fin 2) * 1000 + 1 * r.val = win0_2.index t (0 : Fin 2) * 1000 + 1 * r.val; omega
    | ⟨1, _⟩ => show win0_0.index t (1 : Fin 2) * 128 + 1 * k.val = k.val; omega
  have h1 : ((cfg0.win 1).blk t).view.emb (ix2 k q) = ix2 k ((((cfg0.win 2).blk t).view.emb (ix2 r q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  have e0 : iblk0 V c 0 t (ix2 r k) = V c main_arg0 (ix2 ((((cfg0.win 2).blk t).view.emb (ix2 r q)) 0) k) := by
    show V c main_arg0 (((cfg0.win 0).blk t).view.emb (ix2 r k)) = _
    rw [h0] <;> rfl
  have e1 : iblk0 V c 1 t (ix2 k q) = V c main_v0 (ix2 k ((((cfg0.win 2).blk t).view.emb (ix2 r q)) 1)) := by
    show V c main_v0 (((cfg0.win 1).blk t).view.emb (ix2 k q)) = _
    rw [h1] <;> rfl
  rw [e0, e1]

/-- An index of the output array is in point t's block iff each coordinate is in the block's range on its axis. -/
theorem mem_blk (t : Fin cfg0.N) (i : S10000x128.Idx) :
    i ∈ ((cfg0.win 2).blk t).view.set ↔ ∀ a : Fin 2, win0_2.index t a * S1000x128.size a ≤ (i a).val ∧ (i a).val < win0_2.index t a * S1000x128.size a + S1000x128.size a := by
  show i ∈ ((View.whole main_v1).slice (win0_2.rect t)).set ↔ _
  rw [View.set_slice_whole, Rect.mem_set_unit]
  exact Iff.rfl

/-- Row n lies in block n / 1000: the blocks tile the array. -/
theorem cover (i : S10000x128.Idx) :
    ∃ t : Fin cfg0.N, (cfg0.win 2).flush t = true ∧ i ∈ ((cfg0.win 2).blk t).view.set := by
  have hi0 : (i 0).val < 10000 := (i 0).isLt
  have hi1 : (i 1).val < 128 := (i 1).isLt
  have hN : grid0.N = 10 := N_0
  let t : Fin cfg0.N := ⟨(i 0).val / 1000, by show (i 0).val / 1000 < grid0.N; omega⟩
  obtain ⟨e0, e1, e2, e3, e4, e5⟩ := idx_facts t
  have e4' : win0_2.index t (0 : Fin 2) = (i 0).val / 1000 := e4
  refine ⟨t, flush0_2 t, ?_⟩
  rw [mem_blk]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 128 ≤ (i 1).val ∧ (i 1).val < win0_2.index t (1 : Fin 2) * 128 + 128; omega

/-- The output array after the region: the projection of the arrays the region found. -/
theorem final
    (hpay : ∀ (x0 : Vec Ideal S1000x128 .f32) (x1 : Vec Ideal S128x128 .f32) (r : Fin 1000) (j : Fin 128),
      k0_pay1 (F := Ideal) x0 x1 (ix2 r j) = ∑ k : Fin 128, x0 (ix2 r k) * x1 (ix2 k j))
    (c : Dev nD) : (dat0 V c).arrAt 2 cfg0.N = G (V c main_arg0) (V c main_v0) :=
  (dat0 V c).arrAt_eq_of_cover 2 (G (V c main_arg0) (V c main_v0)) (fun t _ => flushed_eq V hpay c t) cover

end Cert.KernelIdeal.Region0

end
-- ==== Proof.Region1.lean ====
/-
  Region 1 (the edge-weight kernel) as one whole-array function: with the region entered at contents `V`, the output
  column ends at edge e holding f(u, v, a) where u and v are row e of the two gathered tables and a is the attention row,
  for whatever scalar function f the body's payload is at an index (`hpay`). Block t of the output is edges
  3200·t … 3200·t + 3199; the two row windows move with it, the attention window stays on its one block; the two
  hundred blocks tile the 640000 edges.
-/
import proofs.«179195_j20641612824581_2_alg».proof.Proof.Gen.KernelIdeal.Frame
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))
variable (f : (Fin 128 → EReal) → (Fin 128 → EReal) → (Fin 128 → EReal) → EReal)

theorem hz : (![0, 0] : Fin 2 → Nat) = fun _ => 0 := funext fun a => by fin_cases a <;> rfl

/-- The weight of edge e from row e of both tables and the attention row. -/
def edgeAt (el er : S640000x128.Idx → EReal) (a : S1x128.Idx → EReal) (e : Fin 640000) : EReal :=
  f (fun k => el (ix2 e k)) (fun k => er (ix2 e k)) (fun k => a (ix2 (0 : Fin 1) k))

/-- The edge weights as a column. -/
def G (el er : S640000x128.Idx → EReal) (a : S1x128.Idx → EReal) : S640000x1.Idx → EReal :=
  fun i => edgeAt f el er a (i 0)

/-- The printed index maps over the two hundred points: the row windows and the output window sit on block row t,
    column block 0; the attention window on its only block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the edge-weight column of the arrays as the region finds them. -/
theorem flushed_eq
    (hpay : ∀ (x0 x1 : Vec Ideal S3200x128 .bf16) (x2 : Vec Ideal S1x128 .f32) (r : Fin 3200),
      k1_pay1 (F := Ideal) x0 x1 x2 (ix2 r (0 : Fin 1))
        = f (fun k => x0 (ix2 r k)) (fun k => x1 (ix2 r k)) (fun k => x2 (ix2 (0 : Fin 1) k)))
    (c : Dev nD) (t : Fin cfg1.N) :
    (dat1 V c).flushed 3 t
      = ((cfg1.win 3).blk t).view.read (Elt Ideal) (G f (V c main_v9) (V c main_v16) (V c main_v17)) := by
  show (cfg1.win 3).cut (grid1.coords t) ((dat1 V c).after 3 t) = _
  rw [after1_3]
  unfold out1_3
  rw [View.canon_unit_zero hz]
  simp only [View.ld_unit_zero (S := S3200x128) hz, View.ld_unit_zero (S := S1x128) hz]
  obtain ⟨a0, a1, b0, b1, c0, c1, d0, d1⟩ := idx_facts t
  funext j
  obtain ⟨r, u, rfl⟩ : ∃ (r : Fin 3200) (u : Fin 1), j = ix2 r u := ⟨j 0, j 1, eq_ix2 j⟩
  obtain rfl : u = 0 := Subsingleton.elim _ _
  refine (hpay _ _ _ r).trans ?_
  have h0 : ∀ k : Fin 128, ((cfg1.win 0).blk t).view.emb (ix2 r k)
      = ix2 ((((cfg1.win 3).blk t).view.emb (ix2 r (0 : Fin 1))) 0) k := fun k => by
    funext a; apply Fin.ext
    match a with
    | ⟨0, _⟩ => show win1_0.index t (0 : Fin 2) * 3200 + 1 * r.val = win1_3.index t (0 : Fin 2) * 3200 + 1 * r.val; omega
    | ⟨1, _⟩ => show win1_0.index t (1 : Fin 2) * 128 + 1 * k.val = k.val; omega
  have h1 : ∀ k : Fin 128, ((cfg1.win 1).blk t).view.emb (ix2 r k)
      = ix2 ((((cfg1.win 3).blk t).view.emb (ix2 r (0 : Fin 1))) 0) k := fun k => by
    funext a; apply Fin.ext
    match a with
    | ⟨0, _⟩ => show win1_1.index t (0 : Fin 2) * 3200 + 1 * r.val = win1_3.index t (0 : Fin 2) * 3200 + 1 * r.val; omega
    | ⟨1, _⟩ => show win1_1.index t (1 : Fin 2) * 128 + 1 * k.val = k.val; omega
  have h2 : ∀ k : Fin 128, ((cfg1.win 2).blk t).view.emb (ix2 (0 : Fin 1) k) = ix2 (0 : Fin 1) k := fun k => by
    funext a; apply Fin.ext
    match a with
    | ⟨0, _⟩ => show win1_2.index t (0 : Fin 2) * 1 + 1 * 0 = 0; omega
    | ⟨1, _⟩ => show win1_2.index t (1 : Fin 2) * 128 + 1 * k.val = k.val; omega
  have e0 : (fun k : Fin 128 => iblk1 V c 0 t (ix2 r k))
      = fun k => V c main_v9 (ix2 ((((cfg1.win 3).blk t).view.emb (ix2 r (0 : Fin 1))) 0) k) := funext fun k => by
    show V c main_v9 (((cfg1.win 0).blk t).view.emb (ix2 r k)) = _
    rw [h0 k] <;> rfl
  have e1 : (fun k : Fin 128 => iblk1 V c 1 t (ix2 r k))
      = fun k => V c main_v16 (ix2 ((((cfg1.win 3).blk t).view.emb (ix2 r (0 : Fin 1))) 0) k) := funext fun k => by
    show V c main_v16 (((cfg1.win 1).blk t).view.emb (ix2 r k)) = _
    rw [h1 k] <;> rfl
  have e2 : (fun k : Fin 128 => iblk1 V c 2 t (ix2 (0 : Fin 1) k))
      = fun k => V c main_v17 (ix2 (0 : Fin 1) k) := funext fun k => by
    show V c main_v17 (((cfg1.win 2).blk t).view.emb (ix2 (0 : Fin 1) k)) = _
    rw [h2 k] <;> rfl
  rw [e0, e1, e2]
  rfl

/-- An index of the output column is in point t's block iff each coordinate is in the block's range on its axis. -/
theorem mem_blk (t : Fin cfg1.N) (i : S640000x1.Idx) :
    i ∈ ((cfg1.win 3).blk t).view.set ↔ ∀ a : Fin 2, win1_3.index t a * S3200x1.size a ≤ (i a).val ∧ (i a).val < win1_3.index t a * S3200x1.size a + S3200x1.size a := by
  show i ∈ ((View.whole main_v18).slice (win1_3.rect t)).set ↔ _
  rw [View.set_slice_whole, Rect.mem_set_unit]
  exact Iff.rfl

/-- Edge e lies in block e / 3200: the blocks tile the column. -/
theorem cover (i : S640000x1.Idx) :
    ∃ t : Fin cfg1.N, (cfg1.win 3).flush t = true ∧ i ∈ ((cfg1.win 3).blk t).view.set := by
  have hi0 : (i 0).val < 640000 := (i 0).isLt
  have hi1 : (i 1).val < 1 := (i 1).isLt
  have hN : grid1.N = 200 := N_1
  let t : Fin cfg1.N := ⟨(i 0).val / 3200, by show (i 0).val / 3200 < grid1.N; omega⟩
  obtain ⟨a0, a1, b0, b1, c0, c1, d0, d1⟩ := idx_facts t
  have d0' : win1_3.index t (0 : Fin 2) = (i 0).val / 3200 := d0
  refine ⟨t, flush1_3 t, ?_⟩
  rw [mem_blk]
  intro a
  match a with
  | ⟨0, _⟩ => show win1_3.index t (0 : Fin 2) * 3200 ≤ (i 0).val ∧ (i 0).val < win1_3.index t (0 : Fin 2) * 3200 + 3200; omega
  | ⟨1, _⟩ => show win1_3.index t (1 : Fin 2) * 1 ≤ (i 1).val ∧ (i 1).val < win1_3.index t (1 : Fin 2) * 1 + 1; omega

/-- The output column after the region: the edge weights of the arrays the region found. -/
theorem final
    (hpay : ∀ (x0 x1 : Vec Ideal S3200x128 .bf16) (x2 : Vec Ideal S1x128 .f32) (r : Fin 3200),
      k1_pay1 (F := Ideal) x0 x1 x2 (ix2 r (0 : Fin 1))
        = f (fun k => x0 (ix2 r k)) (fun k => x1 (ix2 r k)) (fun k => x2 (ix2 (0 : Fin 1) k)))
    (c : Dev nD) : (dat1 V c).arrAt 3 cfg1.N = G f (V c main_v9) (V c main_v16) (V c main_v17) :=
  (dat1 V c).arrAt_eq_of_cover 3 (G f (V c main_v9) (V c main_v16) (V c main_v17))
    (fun t _ => flushed_eq V f hpay c t) cover

end Cert.KernelIdeal.Region1

end
-- ==== Proof.KValue.lean ====
/-
  The idealized kernel program's result as ONE term of its argument arrays: the aggregation tail over the flattened
  edge-weight column that region 1 leaves, computed from the rows (at the wrapped source and destination indices) of the
  projection region 0 leaves, rounded to bf16, and the attention row. The last boundary's contents are walked back
  through the two regions' final arrays and the three host stretches to the launch memory.
-/
import proofs.«179195_j20641612824581_2_alg».proof.Proof.KRun
import proofs.«179195_j20641612824581_2_alg».proof.Proof.KHost
import proofs.«179195_j20641612824581_2_alg».proof.Proof.Region0
import proofs.«179195_j20641612824581_2_alg».proof.Proof.Region1

set_option maxRecDepth 16384

noncomputable section

namespace Cert.KernelIdeal.KValue

open Cert.KernelIdeal Cert.KernelIdeal.Gen
open Idealize.ShloMosaic Idealize.ShloMosaic.TcCoe Idealize.SL.Sem Idealize.ShloMosaic.ValueIdx
open Facts₀

variable (f : (Fin 128 → EReal) → (Fin 128 → EReal) → (Fin 128 → EReal) → EReal)

/-- The projection region 0 leaves: feat against the transposed weight. -/
def projK (a0 : (⟨S10000x128, .f32⟩ : BufTy).Contents (Elt Ideal)) (a1 : (⟨S128x128, .f32⟩ : BufTy).Contents (Elt Ideal)) : (⟨S10000x128, .f32⟩ : BufTy).Contents (Elt Ideal) :=
  Region0.G a0 (transpose S128x128 [1, 0] a1 Facts₀.transposes_S128x128_S128x128_1_0)

/-- The kernel program's result from its six arguments. -/
def kout (a0 : (⟨S10000x128, .f32⟩ : BufTy).Contents (Elt Ideal)) (a1 : (⟨S128x128, .f32⟩ : BufTy).Contents (Elt Ideal)) (a2 : (⟨S1x1x128, .f32⟩ : BufTy).Contents (Elt Ideal))
    (a3 : (⟨S1, .f32⟩ : BufTy).Contents (Elt Ideal)) (a4 a5 : (⟨S640000, .i32⟩ : BufTy).Contents (Elt Ideal)) : (⟨S10000x128, .f32⟩ : BufTy).Contents (Elt Ideal) :=
  KChain.tail (F := Ideal) a0 a3 a4 a5
    (shapeCast S640000
      (Region1.G f
        (KChain.rows16 (F := Ideal) (truncf (F := Ideal) (s := S10000x128) (φ := .f32) .bf16 (projK a0 a1) Facts₀.bitsLt_bf16_f32) a4)
        (KChain.rows16 (F := Ideal) (truncf (F := Ideal) (s := S10000x128) (φ := .f32) .bf16 (projK a0 a1) Facts₀.bitsLt_bf16_f32) a5)
        (shapeCast S1x128 a2 Facts₀.shapeCasts_S1x1x128_S1x128))
      Facts₀.shapeCasts_S640000x1_S640000)

/-- The result buffer at the last boundary is `kout` of the launch contents of the arguments. -/
theorem result_eq (m : (ℓ : Loc nD τ sig) → Buf (Elt Ideal) ℓ) (ρ : Dev nD → PrngReg)
    (hpay0 : ∀ (x0 : Vec Ideal S1000x128 .f32) (x1 : Vec Ideal S128x128 .f32) (r : Fin 1000) (j : Fin 128),
      k0_pay1 (F := Ideal) x0 x1 (ix2 r j) = ∑ k : Fin 128, x0 (ix2 r k) * x1 (ix2 k j))
    (hpay1 : ∀ (x0 x1 : Vec Ideal S3200x128 .bf16) (x2 : Vec Ideal S1x128 .f32) (r : Fin 3200),
      k1_pay1 (F := Ideal) x0 x1 x2 (ix2 r (0 : Fin 1))
        = f (fun k => x0 (ix2 r k)) (fun k => x1 (ix2 r k)) (fun k => x2 (ix2 (0 : Fin 1) k)))
    (c : Dev nD) :
    W5 m ρ c (Proc.devRef .tc main_v46)
      = kout f (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  -- the arguments at region 1's exit are the launch contents
  have a0_4 : W4 m ρ c (Proc.devRef .tc main_arg0) = (m ((c.tc : Thread nD τ).loc main_arg0)) :=
    (KHost.post_arg0 (W4 m ρ c)).symm.trans (W5_main_arg0 m ρ c)
  have a3_4 : W4 m ρ c (Proc.devRef .tc main_arg3) = (m ((c.tc : Thread nD τ).loc main_arg3)) :=
    (KHost.post_arg3 (W4 m ρ c)).symm.trans (W5_main_arg3 m ρ c)
  have a4_4 : W4 m ρ c (Proc.devRef .tc main_arg4) = (m ((c.tc : Thread nD τ).loc main_arg4)) :=
    (KHost.post_arg4 (W4 m ρ c)).symm.trans (W5_main_arg4 m ρ c)
  have a5_4 : W4 m ρ c (Proc.devRef .tc main_arg5) = (m ((c.tc : Thread nD τ).loc main_arg5)) :=
    (KHost.post_arg5 (W4 m ρ c)).symm.trans (W5_main_arg5 m ρ c)
  -- and at region 0's exit
  have a2_2 : W2 m ρ c (Proc.devRef .tc main_arg2) = (m ((c.tc : Thread nD τ).loc main_arg2)) :=
    (W2_of_ne m ρ c main_arg2 (by decide)).trans ((KHost.pre_arg2 (W0 m ρ c)).trans rfl)
  have a4_2 : W2 m ρ c (Proc.devRef .tc main_arg4) = (m ((c.tc : Thread nD τ).loc main_arg4)) :=
    (W2_of_ne m ρ c main_arg4 (by decide)).trans ((KHost.pre_arg4 (W0 m ρ c)).trans rfl)
  have a5_2 : W2 m ρ c (Proc.devRef .tc main_arg5) = (m ((c.tc : Thread nD τ).loc main_arg5)) :=
    (W2_of_ne m ρ c main_arg5 (by decide)).trans ((KHost.pre_arg5 (W0 m ρ c)).trans rfl)
  -- region 0's entry contents
  have a0_1 : V1 m ρ c main_arg0 = (m ((c.tc : Thread nD τ).loc main_arg0)) := (KHost.pre_arg0 (W0 m ρ c)).trans rfl
  have v0_1 : V1 m ρ c main_v0 = transpose S128x128 [1, 0] (m ((c.tc : Thread nD τ).loc main_arg1)) Facts₀.transposes_S128x128_S128x128_1_0 :=
    (KHost.pre_v0 (W0 m ρ c)).trans rfl
  -- region 0's output
  have v1_2 : W2 m ρ c (Proc.devRef .tc main_v1) = projK (m ((c.tc : Thread nD τ).loc main_arg0)) (m ((c.tc : Thread nD τ).loc main_arg1)) := by
    refine (W2_arr m ρ c 2).trans ((Region0.final (V1 m ρ) hpay0 c).trans ?_)
    rw [a0_1, v0_1]
    rfl
  -- region 1's entry contents
  have v9_3 : V3 m ρ c main_v9
      = KChain.rows16 (F := Ideal) (truncf (F := Ideal) (s := S10000x128) (φ := .f32) .bf16 (projK (m ((c.tc : Thread nD τ).loc main_arg0)) (m ((c.tc : Thread nD τ).loc main_arg1))) Facts₀.bitsLt_bf16_f32) (m ((c.tc : Thread nD τ).loc main_arg4)) := by
    refine (KHost.mid_v9 (W2 m ρ c)).trans ?_
    rw [v1_2, a4_2]
  have v16_3 : V3 m ρ c main_v16
      = KChain.rows16 (F := Ideal) (truncf (F := Ideal) (s := S10000x128) (φ := .f32) .bf16 (projK (m ((c.tc : Thread nD τ).loc main_arg0)) (m ((c.tc : Thread nD τ).loc main_arg1))) Facts₀.bitsLt_bf16_f32) (m ((c.tc : Thread nD τ).loc main_arg5)) := by
    refine (KHost.mid_v16 (W2 m ρ c)).trans ?_
    rw [v1_2, a5_2]
  have v17_3 : V3 m ρ c main_v17 = shapeCast S1x128 (m ((c.tc : Thread nD τ).loc main_arg2)) Facts₀.shapeCasts_S1x1x128_S1x128 := by
    refine (KHost.mid_v17 (W2 m ρ c)).trans ?_
    rw [a2_2]
  -- region 1's output
  have v18_4 : W4 m ρ c (Proc.devRef .tc main_v18)
      = Region1.G f
          (KChain.rows16 (F := Ideal) (truncf (F := Ideal) (s := S10000x128) (φ := .f32) .bf16 (projK (m ((c.tc : Thread nD τ).loc main_arg0)) (m ((c.tc : Thread nD τ).loc main_arg1))) Facts₀.bitsLt_bf16_f32) (m ((c.tc : Thread nD τ).loc main_arg4)))
          (KChain.rows16 (F := Ideal) (truncf (F := Ideal) (s := S10000x128) (φ := .f32) .bf16 (projK (m ((c.tc : Thread nD τ).loc main_arg0)) (m ((c.tc : Thread nD τ).loc main_arg1))) Facts₀.bitsLt_bf16_f32) (m ((c.tc : Thread nD τ).loc main_arg5)))
          (shapeCast S1x128 (m ((c.tc : Thread nD τ).loc main_arg2)) Facts₀.shapeCasts_S1x1x128_S1x128) := by
    refine (W4_arr m ρ c 3).trans ((Region1.final (V3 m ρ) f hpay1 c).trans ?_)
    rw [v9_3, v16_3, v17_3]
  -- the tail
  refine (KHost.post_v46 (W4 m ρ c)).trans ?_
  rw [a0_4, a3_4, a4_4, a5_4, v18_4]
  rfl

end Cert.KernelIdeal.KValue

end
-- ==== Proof.LibPlainDot.lean ====
/-
  A plain matrix product read at an index, on the extended reals.

  For dimension numbers that contract the left operand's second axis against the right operand's first — an
  [M, K] array times a [K, P] array — the product into a zero accumulator, read at row `p` and column `q`, is
  `Σ k, l (p, k) · r (k, q)` over the K contraction coordinates. The contraction's index set has one axis; the sum is
  re-indexed through that axis's coordinate. The two facts about the free axes (the left index keeps the row, the right
  index keeps the column) are taken as hypotheses, since for given dimension numbers they hold by computation.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The matrix product into the zero accumulator at (p, q) is the sum over the contraction coordinate of the left
    operand at (p, k) times the right operand at (k, q). -/
theorem matmul_zero_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    FloatOps.matmul D prec l r (constant ⟨2, ![M, P]⟩ .f32 0x00000000#32) (ix2 p q)
      = ∑ k : Fin K, l (ix2 p k) * r (ix2 k q) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibPlainDot

end
-- ==== Proof.DotKernel.lean ====
/-
  The projection product of the kernel's first function, read at one index, on the extended reals.

  The payload rounds both operands to the narrower format (the identity on the extended reals), casts the right operand
  from its shape to the same shape (the identity), and multiplies a [1000, 128] array by a [128, 128] array, contracting
  the left operand's second axis against the right operand's first, into a zero accumulator. Read at row `r` and column
  `j` the result is therefore `Σ k, x0 (r, k) · x1 (k, j)` over the 128 contraction coordinates.
-/
import proofs.«179195_j20641612824581_2_alg».proof.Proof.Gen.KernelIdeal.Skeleton
import proofs.«179195_j20641612824581_2_alg».proof.Proof.LibPlainDot
import Idealize.ShloMosaic.Lib.ValueIdx
import Idealize.ShloMosaic.PureOps.Ideal.Laws
import Idealize.ShloMosaic.Lib.Pipeline.Value

noncomputable section

open scoped BigOperators

namespace Cert.KernelIdeal.DotValue

open Idealize.ShloMosaic Idealize.ShloMosaic.ValueIdx

/-- On the extended reals the payload is the matrix product of its two arguments into the zero accumulator: the two
    roundings and the cast of a shape to itself change nothing. -/
theorem pay_eq_matmul (x0 : Vec Ideal Cert.KernelIdeal.S1000x128 .f32) (x1 : Vec Ideal Cert.KernelIdeal.S128x128 .f32) :
    Cert.KernelIdeal.Gen.k0_pay1 (F := Ideal) x0 x1
      = FloatOps.matmul (φ₁ := .bf16) (φ₂ := .bf16) Cert.KernelIdeal.dot_S1000x128_S128x128_S1000x128_1_0_0_1_n_n none
          (x0 : FVec Ideal Cert.KernelIdeal.S1000x128 .bf16) (x1 : FVec Ideal Cert.KernelIdeal.S128x128 .bf16)
          (constant Cert.KernelIdeal.S1000x128 .f32 0x00000000#32) := by
  unfold Cert.KernelIdeal.Gen.k0_pay1
  simp only [shapeCast_self]
  rfl

/-- The payload at (r, j) is the sum over the contraction coordinate of the left argument at (r, k) times the right
    argument at (k, j). -/
theorem pay_apply (x0 : Vec Ideal Cert.KernelIdeal.S1000x128 .f32) (x1 : Vec Ideal Cert.KernelIdeal.S128x128 .f32)
    (r : Fin 1000) (j : Fin 128) :
    Cert.KernelIdeal.Gen.k0_pay1 (F := Ideal) x0 x1 (ValueIdx.ix2 r j)
      = ∑ k : Fin 128, x0 (ValueIdx.ix2 r k) * x1 (ValueIdx.ix2 k j) := by
  rw [pay_eq_matmul]
  exact Cert.LibPlainDot.matmul_zero_apply (M := 1000) (K := 128) (P := 128) (φ₁ := .bf16) (φ₂ := .bf16)
    Cert.KernelIdeal.dot_S1000x128_S128x128_S1000x128_1_0_0_1_n_n rfl rfl (fun _ _ => rfl) (fun _ _ => rfl) rfl rfl none
    x0 x1 r j

end Cert.KernelIdeal.DotValue

end
-- ==== Proof.Spec.lean ====
/-
  The weight of one edge as a function of three rows of 128 extended reals: the two projected rows u, v at the ends of
  the edge and the attention vector a,
      w = σ( (Σ_k lrelu(u_k + v_k) · a_k) · σ(Σ_k u_k · v_k) ),
  with lrelu(s) = s where s ≥ 0 and c · s elsewhere (c the value of the f32 word 0x3E4CCCCD, nearest to 0.2; it is never
  evaluated) and σ the logistic 1 / (1 + exp(−x)) on the extended reals. Both programs compute this scalar at every
  edge; each is compared with it separately.
-/
import Idealize.ShloMosaic.PureOps.Ideal
import Idealize.ShloMosaic.PureOps.Ideal.Laws
import Idealize.ShloMosaic.Lib.ValueIdx

noncomputable section

open scoped BigOperators

namespace Cert.Spec

open Idealize.ShloMosaic

/-- The leaky rectifier: s where s ≥ 0, the slope word's value times s elsewhere. The comparison is the ideal
    instance's ordered "≥" against the value of the f32 zero word, which is 0 (`Ideal.ofBits_zero_f32`); the select
    returns its first operand exactly where the comparison's bit is 1. -/
def lrelu (s : EReal) : EReal :=
  Scalar.select (Ideal.cmp .oge s (Ideal.ofBits .f32 0x00000000#32)) s (Ideal.ofBits .f32 0x3E4CCCCD#32 * s)

/-- The rectifier by cases on the order. -/
theorem lrelu_eq (s : EReal) : lrelu s = if 0 ≤ s then s else Ideal.ofBits .f32 0x3E4CCCCD#32 * s := by
  unfold lrelu Scalar.select Ideal.cmp
  rw [Ideal.ofBits_zero_f32]
  by_cases h : (0 : EReal) ≤ s <;> simp [h]

/-- The edge weight σ(e · σ(u·v)), e = Σ_k lrelu(u_k + v_k) · a_k. -/
def edge (u v a : Fin 128 → EReal) : EReal :=
  Ideal.logistic ((∑ k : Fin 128, lrelu (u k + v k) * a k) * Ideal.logistic (∑ k : Fin 128, u k * v k))

end Cert.Spec

end
-- ==== Proof.EdgeKernel.lean ====
/-
  The kernel's payload of one block of 3200 edges, read at one row: the stored column at (r, 0) is the edge weight of
  row r of the two loaded blocks and the loaded attention row. The pointwise operations read through at an index; the
  casts of a shape to itself are the identity; the widening of bf16 to f32 is the identity on extended reals; the sum
  along the lanes is the sum over the 128 lane coordinates; the [3200] → [3200, 1] cast reads its vector at the row;
  the [1, 128] → [3200, 128] broadcast reads the one row at the lane.
-/
import proofs.«179195_j20641612824581_2_alg».proof.Proof.Gen.KernelIdeal.Skeleton
import proofs.«179195_j20641612824581_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.EdgeValue

open Idealize.ShloMosaic Idealize.ShloMosaic.ValueIdx

/-- A length-m vector cast to an [m, 1] column reads, at (i, u), the vector at i: both indices have row-major
    position i. -/
theorem column_apply {α : Type} {m : Nat} (x : (⟨1, ![m]⟩ : Shape).Idx → α)
    (h : (⟨1, ![m]⟩ : Shape).ShapeCasts ⟨2, ![m, 1]⟩) (i : Fin m) (u : Fin 1) :
    shapeCast ⟨2, ![m, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [m, n] vector summed along its second axis reads, at row r, the sum over the n lane coordinates of the vector
    at (r, k): the source index over r with lane k inserted is (r, k). -/
theorem rowSum_apply {m n : Nat} (src : FVec Ideal ⟨2, ![m, n]⟩ .f32)
    (h : (⟨2, ![m, n]⟩ : Shape).Reduces [1] ⟨1, ![m]⟩) (hφ : FKind.Formats .f32)
    (hacc : (0x00000000#32 : BitVec 32) = FKind.add.neutral .f32 hφ) (r : Fin m) :
    multiReduction (F := Ideal) .add [1] ⟨1, ![m]⟩ src 0x00000000#32 h hφ hacc (ix1 r)
      = ∑ k : Fin n, src (ix2 r k) := by
  refine (Ideal.multiReduction_add_single src 0x00000000#32 h hφ hacc (ix1 r)).trans ?_
  refine Finset.sum_congr rfl fun k _ => congrArg src (funext fun c => ?_)
  match c with
  | ⟨0, _⟩ => exact Fin.ext rfl
  | ⟨1, _⟩ => exact Fin.ext rfl

/-- The payload at row r of the block: the edge weight of the r-th rows of the two loaded blocks and the loaded
    attention row. -/
theorem pay_apply (x0 x1 : Vec Ideal Cert.KernelIdeal.S3200x128 .bf16) (x2 : Vec Ideal Cert.KernelIdeal.S1x128 .f32) (r : Fin 3200) :
    Cert.KernelIdeal.Gen.k1_pay1 (F := Ideal) x0 x1 x2 (ValueIdx.ix2 r (0 : Fin 1))
      = Cert.Spec.edge (fun k => x0 (ValueIdx.ix2 r k)) (fun k => x1 (ValueIdx.ix2 r k)) (fun k => x2 (ValueIdx.ix2 (0 : Fin 1) k)) := by
  unfold Cert.KernelIdeal.Gen.k1_pay1
  simp only [shapeCast_self]
  show Ideal.logistic (shapeCast S3200x1 _ _ (ix2 r (0 : Fin 1)) * Ideal.logistic (shapeCast S3200x1 _ _ (ix2 r (0 : Fin 1)))) = _
  rw [column_apply, column_apply]
  unfold Cert.Spec.edge
  refine congrArg Ideal.logistic ?_
  refine congrArg₂ (· * ·) ?_ (congrArg Ideal.logistic ?_)
  · refine (rowSum_apply _ _ _ _ r).trans ?_
    refine Finset.sum_congr rfl fun k _ => ?_
    refine congrArg₂ (· * ·) rfl ?_
    exact broadcastTo_1b_ab_apply x2 _ r k
  · exact rowSum_apply _ _ _ _ r

end Cert.KernelIdeal.EdgeValue

end
-- ==== Proof.Chain.lean ====
/-
  The reference's host operations grouped into five named functions of whole arrays, for any float instance:
  the projection feat · Wᵀ, an index wrapped from the end, the rows of a table at wrapped indices, the edge weight
  w = σ(e · σ(u·v)) with e = Σ_k lrelu(u_k + v_k) · a_k, and the aggregation tail
  (1 + eps) · feat + (Σ_{dst = n} feat[src] · w) / max(deg, 1).  Both programs are stated over these terms.
-/
import proofs.«179195_j20641612824581_2_alg».proof.ReferenceIdeal

noncomputable section

namespace Cert.ReferenceIdeal.Chain

open Cert.ReferenceIdeal Idealize.ShloMosaic
open Facts₀

variable {F : FTy → Type} [FloatOps F] [Facts]

/-- feat · Wᵀ: the weight transposed, then rows against columns. -/
def proj (a0 : (⟨S10000x128, .f32⟩ : BufTy).Contents (Elt F)) (a1 : (⟨S128x128, .f32⟩ : BufTy).Contents (Elt F)) : (⟨S10000x128, .f32⟩ : BufTy).Contents (Elt F) :=
  Host.dotGeneral dot_S10000x128_S128x128_S10000x128_1_0_0_1_n_n none a0
    (transpose S128x128 [1, 0] a1 transposes_S128x128_S128x128_1_0)

/-- A negative node index counts from the end: ix < 0 ↦ ix + 10000. -/
def wrap (ix : (⟨S640000, .i32⟩ : BufTy).Contents (Elt F)) : (⟨S640000, .i32⟩ : BufTy).Contents (Elt F) :=
  (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F))
    ((cmpi .slt : (⟨S640000, .i32⟩ : BufTy).Contents (Elt F) → (⟨S640000, .i32⟩ : BufTy).Contents (Elt F) → (⟨S640000, .i1⟩ : BufTy).Contents (Elt F)) ix
      ((broadcastInDim S640000 ![] bcast_S_S640000 : (⟨S_, .i32⟩ : BufTy).Contents (Elt F) → (⟨S640000, .i32⟩ : BufTy).Contents (Elt F)) (constantI S_ 32 0#32)))
    ((addi : (⟨S640000, .i32⟩ : BufTy).Contents (Elt F) → (⟨S640000, .i32⟩ : BufTy).Contents (Elt F) → (⟨S640000, .i32⟩ : BufTy).Contents (Elt F)) ix
      ((broadcastInDim S640000 ![] bcast_S_S640000 : (⟨S_, .i32⟩ : BufTy).Contents (Elt F) → (⟨S640000, .i32⟩ : BufTy).Contents (Elt F)) (constantI S_ 32 10000#32)))
    ix

/-- The rows of a node table at the wrapped indices, one per edge. -/
def rows (x : (⟨S10000x128, .f32⟩ : BufTy).Contents (Elt F)) (ix : (⟨S640000, .i32⟩ : BufTy).Contents (Elt F)) : (⟨S640000x128, .f32⟩ : BufTy).Contents (Elt F) :=
  Host.gather gather_S10000x128_S640000x1_S640000x128_1_0_n_n_0_1_1128 x
    ((broadcastInDim S640000x1 ![0] bcast_S640000_S640000x1_0 : (⟨S640000, .i32⟩ : BufTy).Contents (Elt F) → (⟨S640000x1, .i32⟩ : BufTy).Contents (Elt F)) (wrap ix))

/-- The leaky rectifier with slope 0.2 below zero. -/
def lrelu (s : (⟨S640000x128, .f32⟩ : BufTy).Contents (Elt F)) : (⟨S640000x128, .f32⟩ : BufTy).Contents (Elt F) :=
  (select : (⟨S640000x128, .i1⟩ : BufTy).Contents (Elt F) → (⟨S640000x128, .f32⟩ : BufTy).Contents (Elt F) → (⟨S640000x128, .f32⟩ : BufTy).Contents (Elt F) → (⟨S640000x128, .f32⟩ : BufTy).Contents (Elt F))
    ((cmpf .oge : (⟨S640000x128, .f32⟩ : BufTy).Contents (Elt F) → (⟨S640000x128, .f32⟩ : BufTy).Contents (Elt F) → (⟨S640000x128, .i1⟩ : BufTy).Contents (Elt F)) s
      ((broadcastInDim S640000x128 ![] bcast_S_S640000x128 : (⟨S_, .f32⟩ : BufTy).Contents (Elt F) → (⟨S640000x128, .f32⟩ : BufTy).Contents (Elt F)) (constant S_ .f32 0x00000000#32)))
    s
    ((mulf : (⟨S640000x128, .f32⟩ : BufTy).Contents (Elt F) → (⟨S640000x128, .f32⟩ : BufTy).Contents (Elt F) → (⟨S640000x128, .f32⟩ : BufTy).Contents (Elt F))
      ((broadcastInDim S640000x128 ![] bcast_S_S640000x128 : (⟨S_, .f32⟩ : BufTy).Contents (Elt F) → (⟨S640000x128, .f32⟩ : BufTy).Contents (Elt F)) (constant S_ .f32 0x3E4CCCCD#32)) s)

/-- The logistic 1 / (1 + exp (−x)) of a vector, in the host's four operations. -/
def sigm (x : (⟨S640000, .f32⟩ : BufTy).Contents (Elt F)) : (⟨S640000, .f32⟩ : BufTy).Contents (Elt F) :=
  (Host.divf : (⟨S640000, .f32⟩ : BufTy).Contents (Elt F) → (⟨S640000, .f32⟩ : BufTy).Contents (Elt F) → (⟨S640000, .f32⟩ : BufTy).Contents (Elt F))
    ((broadcastInDim S640000 ![] bcast_S_S640000 : (⟨S_, .f32⟩ : BufTy).Contents (Elt F) → (⟨S640000, .f32⟩ : BufTy).Contents (Elt F)) (constant S_ .f32 0x3F800000#32))
    ((addf : (⟨S640000, .f32⟩ : BufTy).Contents (Elt F) → (⟨S640000, .f32⟩ : BufTy).Contents (Elt F) → (⟨S640000, .f32⟩ : BufTy).Contents (Elt F))
      ((broadcastInDim S640000 ![] bcast_S_S640000 : (⟨S_, .f32⟩ : BufTy).Contents (Elt F) → (⟨S640000, .f32⟩ : BufTy).Contents (Elt F)) (constant S_ .f32 0x3F800000#32))
      ((Host.exp : (⟨S640000, .f32⟩ : BufTy).Contents (Elt F) → (⟨S640000, .f32⟩ : BufTy).Contents (Elt F)) ((Host.negf : (⟨S640000, .f32⟩ : BufTy).Contents (Elt F) → (⟨S640000, .f32⟩ : BufTy).Contents (Elt F)) x)))

/-- The attention vector as a row repeated over the edges. -/
def attnRows (a2 : (⟨S1x1x128, .f32⟩ : BufTy).Contents (Elt F)) : (⟨S640000x128, .f32⟩ : BufTy).Contents (Elt F) :=
  (broadcastInDim S640000x128 ![0, 1] bcast_S1x128_S640000x128_0_1 : (⟨S1x128, .f32⟩ : BufTy).Contents (Elt F) → (⟨S640000x128, .f32⟩ : BufTy).Contents (Elt F))
    ((broadcastInDim S1x128 ![1] bcast_S128_S1x128_1 : (⟨S128, .f32⟩ : BufTy).Contents (Elt F) → (⟨S1x128, .f32⟩ : BufTy).Contents (Elt F))
      (shapeCast S128 a2 shapeCasts_S1x1x128_S128))

/-- The edge weight w = σ(e · σ(u·v)), e = Σ_k lrelu(u_k + v_k) · a_k, from the two gathered row tables. -/
def edgeW (el er : (⟨S640000x128, .f32⟩ : BufTy).Contents (Elt F)) (a2 : (⟨S1x1x128, .f32⟩ : BufTy).Contents (Elt F)) : (⟨S640000, .f32⟩ : BufTy).Contents (Elt F) :=
  sigm ((mulf : (⟨S640000, .f32⟩ : BufTy).Contents (Elt F) → (⟨S640000, .f32⟩ : BufTy).Contents (Elt F) → (⟨S640000, .f32⟩ : BufTy).Contents (Elt F))
    (Host.reduceAdd ((mulf : (⟨S640000x128, .f32⟩ : BufTy).Contents (Elt F) → (⟨S640000x128, .f32⟩ : BufTy).Contents (Elt F) → (⟨S640000x128, .f32⟩ : BufTy).Contents (Elt F)) (lrelu ((addf : (⟨S640000x128, .f32⟩ : BufTy).Contents (Elt F) → (⟨S640000x128, .f32⟩ : BufTy).Contents (Elt F) → (⟨S640000x128, .f32⟩ : BufTy).Contents (Elt F)) el er)) (attnRows a2))
      (constant S_ .f32 0x00000000#32) reducesTo_S640000x128_S640000_d1 h_S_)
    (sigm (Host.reduceAdd ((mulf : (⟨S640000x128, .f32⟩ : BufTy).Contents (Elt F) → (⟨S640000x128, .f32⟩ : BufTy).Contents (Elt F) → (⟨S640000x128, .f32⟩ : BufTy).Contents (Elt F)) el er)
      (constant S_ .f32 0x00000000#32) reducesTo_S640000x128_S640000_d1 h_S_)))

/-- The aggregation: messages feat[src] · w summed per destination, divided by max(in-degree, 1), plus (1 + eps) · feat. -/
def tail (a0 : (⟨S10000x128, .f32⟩ : BufTy).Contents (Elt F)) (a3 : (⟨S1, .f32⟩ : BufTy).Contents (Elt F)) (a4 a5 : (⟨S640000, .i32⟩ : BufTy).Contents (Elt F)) (w : (⟨S640000, .f32⟩ : BufTy).Contents (Elt F)) : (⟨S10000x128, .f32⟩ : BufTy).Contents (Elt F) :=
  (addf : (⟨S10000x128, .f32⟩ : BufTy).Contents (Elt F) → (⟨S10000x128, .f32⟩ : BufTy).Contents (Elt F) → (⟨S10000x128, .f32⟩ : BufTy).Contents (Elt F))
    ((mulf : (⟨S10000x128, .f32⟩ : BufTy).Contents (Elt F) → (⟨S10000x128, .f32⟩ : BufTy).Contents (Elt F) → (⟨S10000x128, .f32⟩ : BufTy).Contents (Elt F))
      ((broadcastInDim S10000x128 ![] bcast_S_S10000x128 : (⟨S_, .f32⟩ : BufTy).Contents (Elt F) → (⟨S10000x128, .f32⟩ : BufTy).Contents (Elt F))
        ((addf : (⟨S_, .f32⟩ : BufTy).Contents (Elt F) → (⟨S_, .f32⟩ : BufTy).Contents (Elt F) → (⟨S_, .f32⟩ : BufTy).Contents (Elt F)) (constant S_ .f32 0x3F800000#32) (shapeCast S_ a3 shapeCasts_S1_S_)))
      a0)
    ((Host.divf : (⟨S10000x128, .f32⟩ : BufTy).Contents (Elt F) → (⟨S10000x128, .f32⟩ : BufTy).Contents (Elt F) → (⟨S10000x128, .f32⟩ : BufTy).Contents (Elt F))
      (Host.scatterAdd scatter_S10000x128_S640000x1_S640000x128_1_0_0_1
        ((broadcastInDim S10000x128 ![] bcast_S_S10000x128 : (⟨S_, .f32⟩ : BufTy).Contents (Elt F) → (⟨S10000x128, .f32⟩ : BufTy).Contents (Elt F)) (constant S_ .f32 0x00000000#32))
        ((broadcastInDim S640000x1 ![0] bcast_S640000_S640000x1_0 : (⟨S640000, .i32⟩ : BufTy).Contents (Elt F) → (⟨S640000x1, .i32⟩ : BufTy).Contents (Elt F)) a5)
        ((mulf : (⟨S640000x128, .f32⟩ : BufTy).Contents (Elt F) → (⟨S640000x128, .f32⟩ : BufTy).Contents (Elt F) → (⟨S640000x128, .f32⟩ : BufTy).Contents (Elt F)) (rows a0 a4)
          ((broadcastInDim S640000x128 ![0, 1] bcast_S640000x1_S640000x128_0_1 : (⟨S640000x1, .f32⟩ : BufTy).Contents (Elt F) → (⟨S640000x128, .f32⟩ : BufTy).Contents (Elt F))
            ((broadcastInDim S640000x1 ![0] bcast_S640000_S640000x1_0 : (⟨S640000, .f32⟩ : BufTy).Contents (Elt F) → (⟨S640000x1, .f32⟩ : BufTy).Contents (Elt F)) w))))
      ((broadcastInDim S10000x128 ![0, 1] bcast_S10000x1_S10000x128_0_1 : (⟨S10000x1, .f32⟩ : BufTy).Contents (Elt F) → (⟨S10000x128, .f32⟩ : BufTy).Contents (Elt F))
        ((broadcastInDim S10000x1 ![0] bcast_S10000_S10000x1_0 : (⟨S10000, .f32⟩ : BufTy).Contents (Elt F) → (⟨S10000x1, .f32⟩ : BufTy).Contents (Elt F))
          ((maximumf : (⟨S10000, .f32⟩ : BufTy).Contents (Elt F) → (⟨S10000, .f32⟩ : BufTy).Contents (Elt F) → (⟨S10000, .f32⟩ : BufTy).Contents (Elt F))
            (Host.scatterAdd scatter_S10000_S640000x1_S640000_n_0_0_1
              ((broadcastInDim S10000 ![] bcast_S_S10000 : (⟨S_, .f32⟩ : BufTy).Contents (Elt F) → (⟨S10000, .f32⟩ : BufTy).Contents (Elt F)) (constant S_ .f32 0x00000000#32))
              ((broadcastInDim S640000x1 ![0] bcast_S640000_S640000x1_0 : (⟨S640000, .i32⟩ : BufTy).Contents (Elt F) → (⟨S640000x1, .i32⟩ : BufTy).Contents (Elt F)) a5)
              ((broadcastInDim S640000 ![] bcast_S_S640000 : (⟨S_, .f32⟩ : BufTy).Contents (Elt F) → (⟨S640000, .f32⟩ : BufTy).Contents (Elt F)) (constant S_ .f32 0x3F800000#32)))
            ((broadcastInDim S10000 ![] bcast_S_S10000 : (⟨S_, .f32⟩ : BufTy).Contents (Elt F) → (⟨S10000, .f32⟩ : BufTy).Contents (Elt F)) (constant S_ .f32 0x3F800000#32))))))

/-- The whole reference: the tail over the edge weights of the projected rows at both ends of every edge. -/
def out (a0 : (⟨S10000x128, .f32⟩ : BufTy).Contents (Elt F)) (a1 : (⟨S128x128, .f32⟩ : BufTy).Contents (Elt F)) (a2 : (⟨S1x1x128, .f32⟩ : BufTy).Contents (Elt F)) (a3 : (⟨S1, .f32⟩ : BufTy).Contents (Elt F))
    (a4 a5 : (⟨S640000, .i32⟩ : BufTy).Contents (Elt F)) : (⟨S10000x128, .f32⟩ : BufTy).Contents (Elt F) :=
  tail a0 a3 a4 a5 (edgeW (rows (proj a0 a1) a4) (rows (proj a0 a1) a5) a2)

end Cert.ReferenceIdeal.Chain

end
-- ==== Proof.LibHostDot.lean ====
/-
  A plain matrix product on the host, read at an index, on the extended reals.

  For dimension numbers that contract the left operand's second axis against the right operand's first — an [M, K] array
  times a [K, P] array — the host's product read at row `p` and column `q` is `Σ k, l (p, k) · r (k, q)` over the K
  contraction coordinates: the sum over the contraction's index set, which has one axis, re-indexed through that axis's
  coordinate. The two facts about the free axes are taken as hypotheses, since for given dimension numbers they hold by
  computation.
-/
import Idealize.ShloMosaic.PureOps.Ideal.Laws
import Idealize.ShloMosaic.Lib.ValueIdx

noncomputable section

open scoped BigOperators

namespace Cert.LibHostDot

open Idealize.ShloMosaic Idealize.ShloMosaic.ValueIdx

/-- The host's matrix product at (p, q) is the sum over the contraction coordinate of the left operand at (p, k) times the
    right operand at (k, q). -/
theorem dotGeneral_plain_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    Host.dotGeneral D prec l r (ix2 p q) = ∑ k : Fin K, l (ix2 p k) * r (ix2 k q) := by
  simp only [Host.dotGeneral]
  rw [Ideal.dotGeneral_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibHostDot

end
-- ==== Proof.DotRef.lean ====
/-
  The reference's projection product read at one index, and a row gather of a rounded table, on the extended reals.

  The reference multiplies a [10000, 128] array by a [128, 128] array, contracting the left operand's second axis against
  the right operand's first. Read at row `p` and column `q` the product is `Σ k, l (p, k) · r (k, q)` over the 128
  contraction coordinates.

  A gather only moves elements: each element of the result is the operand's at an index computed from the start indices
  and the result position. Rounding to a narrower format is the identity on the extended reals, so gathering rows of the
  rounded table is gathering rows of the table itself.
-/
import proofs.«179195_j20641612824581_2_alg».proof.Proof.Gen.ReferenceIdeal
import proofs.«179195_j20641612824581_2_alg».proof.Proof.LibHostDot
import Idealize.ShloMosaic.Lib.ValueIdx
import Idealize.ShloMosaic.PureOps.Ideal.Laws

noncomputable section

open scoped BigOperators

namespace Cert.ReferenceIdeal.DotValue

open Idealize.ShloMosaic Idealize.ShloMosaic.ValueIdx

/-- The reference's product at (p, q) is the sum over the contraction coordinate of the left operand at (p, k) times the
    right operand at (k, q). -/
theorem dot_apply (l : (⟨Cert.ReferenceIdeal.S10000x128, .f32⟩ : BufTy).Contents (Elt Ideal))
    (r : (⟨Cert.ReferenceIdeal.S128x128, .f32⟩ : BufTy).Contents (Elt Ideal)) (p : Fin 10000) (q : Fin 128) :
    Host.dotGeneral (F := Ideal) (φ₁ := .f32) (φ₂ := .f32)
        Cert.ReferenceIdeal.dot_S10000x128_S128x128_S10000x128_1_0_0_1_n_n none l r (ValueIdx.ix2 p q)
      = ∑ k : Fin 128, l (ValueIdx.ix2 p k) * r (ValueIdx.ix2 k q) :=
  Cert.LibHostDot.dotGeneral_plain_apply (M := 10000) (K := 128) (P := 128) (φ₁ := .f32) (φ₂ := .f32)
    Cert.ReferenceIdeal.dot_S10000x128_S128x128_S10000x128_1_0_0_1_n_n rfl rfl (fun _ _ => rfl) (fun _ _ => rfl) rfl rfl none
    l r p q

/-- Gathering rows of the table rounded to the narrower format is gathering rows of the table: each gathered element is
    the operand's at the gathered index, and the rounding is the identity there. -/
theorem gather_bf16 (gd : GatherDims Cert.ReferenceIdeal.S10000x128 Cert.ReferenceIdeal.S640000x1 Cert.ReferenceIdeal.S640000x128)
    (h : FTy.bits .bf16 < FTy.bits .f32)
    (x : (⟨Cert.ReferenceIdeal.S10000x128, .f32⟩ : BufTy).Contents (Elt Ideal))
    (i : (⟨Cert.ReferenceIdeal.S640000x1, .i32⟩ : BufTy).Contents (Elt Ideal)) :
    (Host.gather gd ((truncf (F := Ideal) (s := Cert.ReferenceIdeal.S10000x128) (φ := .f32) .bf16 x h
          : (⟨Cert.ReferenceIdeal.S10000x128, .bf16⟩ : BufTy).Contents (Elt Ideal))) i
        : Cert.ReferenceIdeal.S640000x128.Idx → EReal)
      = (Host.gather gd x i : Cert.ReferenceIdeal.S640000x128.Idx → EReal) :=
  rfl

end Cert.ReferenceIdeal.DotValue

end
-- ==== Proof.BridgeProj.lean ====
/-
  The two programs' shared pieces are one function each. The aggregation tail and the row gather are the same host
  operations over records with equal fields; the kernel program gathers rows of the projection rounded to bf16, which on
  the extended reals is the projection itself. The projection that region 0 leaves, Σ_k feat(n, k) · Wᵀ(k, j), is the
  reference's product of feat with the transposed weight, index by index.
-/
import proofs.«179195_j20641612824581_2_alg».proof.Proof.KValue
import proofs.«179195_j20641612824581_2_alg».proof.Proof.Chain
import proofs.«179195_j20641612824581_2_alg».proof.Proof.DotRef
import proofs.«179195_j20641612824581_2_alg».proof.Proof.Gen.ReferenceIdeal
import proofs.«179195_j20641612824581_2_alg».proof.Proof.Gen.KernelIdeal

noncomputable section

namespace Cert.Bridge

open Idealize.ShloMosaic Idealize.ShloMosaic.ValueIdx

/-- The aggregation tail is one function in both programs. -/
theorem tail_eq (a0 : (⟨Cert.KernelIdeal.S10000x128, .f32⟩ : BufTy).Contents (Elt Ideal)) (a3 : (⟨Cert.KernelIdeal.S1, .f32⟩ : BufTy).Contents (Elt Ideal)) (a4 a5 : (⟨Cert.KernelIdeal.S640000, .i32⟩ : BufTy).Contents (Elt Ideal)) (w : (⟨Cert.KernelIdeal.S640000, .f32⟩ : BufTy).Contents (Elt Ideal)) :
    Cert.KernelIdeal.KChain.tail (F := Ideal) a0 a3 a4 a5 w = Cert.ReferenceIdeal.Chain.tail (F := Ideal) a0 a3 a4 a5 w :=
  rfl

/-- Rows of the table rounded to bf16, in the kernel program, are the reference's rows of the table. -/
theorem rows16_eq (x : (⟨Cert.KernelIdeal.S10000x128, .f32⟩ : BufTy).Contents (Elt Ideal)) (ix : (⟨Cert.KernelIdeal.S640000, .i32⟩ : BufTy).Contents (Elt Ideal)) :
    (Cert.KernelIdeal.KChain.rows16 (F := Ideal) (truncf (F := Ideal) (s := Cert.KernelIdeal.S10000x128) (φ := .f32) .bf16 x Cert.KernelIdeal.Facts₀.bitsLt_bf16_f32) ix
        : Cert.KernelIdeal.S640000x128.Idx → EReal)
      = (Cert.ReferenceIdeal.Chain.rows (F := Ideal) x ix : Cert.ReferenceIdeal.S640000x128.Idx → EReal) :=
  rfl

/-- The projection region 0 leaves is the reference's projection. -/
theorem projK_eq (a0 : (⟨Cert.KernelIdeal.S10000x128, .f32⟩ : BufTy).Contents (Elt Ideal)) (a1 : (⟨Cert.KernelIdeal.S128x128, .f32⟩ : BufTy).Contents (Elt Ideal)) :
    Cert.KernelIdeal.KValue.projK a0 a1 = Cert.ReferenceIdeal.Chain.proj (F := Ideal) a0 a1 := by
  funext i
  obtain ⟨n, j, rfl⟩ : ∃ (n : Fin 10000) (j : Fin 128), i = ix2 n j := ⟨i 0, i 1, eq_ix2 i⟩
  refine Eq.trans ?_ (Cert.ReferenceIdeal.DotValue.dot_apply a0
    (transpose Cert.ReferenceIdeal.S128x128 [1, 0] a1 Cert.ReferenceIdeal.Facts₀.transposes_S128x128_S128x128_1_0) n j).symm
  rfl

end Cert.Bridge

end
-- ==== Proof.EdgeRef.lean ====
/-
  The reference's edge weight, read at one edge: the array the host operations compute over all 640000 edges is, at edge
  e, the edge weight of row e of the two gathered row tables and the attention vector. The host's sum along the second
  axis is its start value plus the sum over the 128 coordinates, and the start value is the zero word, which is 0; the
  host's spelling of the logistic (negate, exponential, add one, divide one by it) is the logistic, the word of one
  being 1; a scalar repeated to an array reads the scalar; the attention vector reshaped [1,1,128] → [128], placed as a
  [1,128] row and repeated over the edges reads, at (e, k), the vector at (0, 0, k).
-/
import proofs.«179195_j20641612824581_2_alg».proof.Proof.Gen.ReferenceIdeal
import proofs.«179195_j20641612824581_2_alg».proof.Proof.Chain
import proofs.«179195_j20641612824581_2_alg».proof.Proof.Spec
import Idealize.ShloMosaic.Lib.ValueIdx
import Idealize.ShloMosaic.Lib.Pipeline.Value
import Idealize.ShloMosaic.Lib.IdealHost
import Idealize.ShloMosaic.PureOps.Ideal.Laws

noncomputable section

open scoped BigOperators

namespace Cert.ReferenceIdeal.EdgeValue

open Cert.ReferenceIdeal Idealize.ShloMosaic Idealize.ShloMosaic.ValueIdx

/-- The host's sum of an [m, n] array along its second axis reads, at row r, the start value plus the sum over the n
    coordinates of the array at (r, k): the source index over r with coordinate k inserted is (r, k). -/
theorem hostRowSum_apply {m n : Nat} (x : FVec Ideal ⟨2, ![m, n]⟩ .f32) (init : (⟨0, ![]⟩ : Shape).Idx → Ideal .f32)
    (h' : (⟨2, ![m, n]⟩ : Shape).ReducesTo [1] ⟨1, ![m]⟩) (hu : 0 < (⟨0, ![]⟩ : Shape).numel) (r : Fin m) :
    Host.reduceAdd x init h' hu (ix1 r) = init (Shape.Idx.first hu) + ∑ k : Fin n, x (ix2 r k) := by
  have h : (⟨2, ![m, n]⟩ : Shape).Reduces [1] ⟨1, ![m]⟩ := ⟨h'.1, Nat.one_pos, h'.2⟩
  show Ideal.hostReduceAdd h' x (init (Shape.Idx.first hu)) (ix1 r) = _
  refine (Ideal.hostReduceAdd_single h' h x (init (Shape.Idx.first hu)) (ix1 r)).trans ?_
  refine congrArg (init (Shape.Idx.first hu) + ·) ?_
  refine Finset.sum_congr rfl fun k _ => congrArg x (funext fun c => ?_)
  match c with
  | ⟨0, _⟩ => exact Fin.ext rfl
  | ⟨1, _⟩ => exact Fin.ext rfl

/-- A [1, 1, b] array reshaped to a length-b vector reads, at k, the array at (0, 0, k): both indices have row-major
    position k. -/
theorem shapeCast_11b_b_apply {α : Type} {b : Nat} (x : (⟨3, ![1, 1, b]⟩ : Shape).Idx → α)
    (h : (⟨3, ![1, 1, b]⟩ : Shape).ShapeCasts ⟨1, ![b]⟩) (k : Fin b) :
    shapeCast ⟨1, ![b]⟩ x h (ix1 k) = x (ix3 (0 : Fin 1) (0 : Fin 1) k) :=
  shapeCast_apply x h _ _ (by
    rw [Shape.rowMajor_val_three, Shape.rowMajor_val_one]
    show (0 * 1 + 0) * b + k.val = k.val
    rw [Nat.zero_mul, Nat.zero_add])

/-- A length-b vector placed as a [1, b] row and repeated over a rows reads, at (p, k), the vector at k. -/
theorem rowRepeat_apply {α : Type} {a b : Nat} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (k : Fin b) :
    broadcastInDim ⟨2, ![a, b]⟩ (![0, 1] : Fin 2 → Fin 2) h2 (broadcastInDim ⟨2, ![1, b]⟩ (![1] : Fin 1 → Fin 2) h1 x) (ix2 p k)
      = x (ix1 k) := by
  refine (broadcastInDim_apply (![0, 1] : Fin 2 → Fin 2) h2 _ (ix2 p k) (ix2 (0 : Fin 1) k) fun ax => ?_).trans ?_
  · match ax with
    | ⟨0, _⟩ => rfl
    | ⟨1, _⟩ =>
      show k.val = if b = 1 then 0 else k.val
      split
      · have := k.isLt; omega
      · rfl
  · refine broadcastInDim_apply (![1] : Fin 1 → Fin 2) h1 x (ix2 (0 : Fin 1) k) (ix1 k) fun ax => ?_
    match ax with
    | ⟨0, _⟩ =>
      show k.val = if b = 1 then 0 else k.val
      split
      · have := k.isLt; omega
      · rfl

/-- The host's four-operation logistic at an index is the logistic of the element: the word of one is 1. -/
theorem sigm_apply (x : (⟨S640000, .f32⟩ : BufTy).Contents (Elt Ideal)) (j : S640000.Idx) :
    Chain.sigm (F := Ideal) x j = Ideal.logistic (x j) := by
  show Ideal.div (Ideal.ofBits .f32 0x3F800000#32) (Ideal.ofBits .f32 0x3F800000#32 + Ideal.exp (-(x j))) = _
  rw [Ideal.ofBits_one_f32]
  rfl

/-- The host's rectifier at an index is the rectifier of the element. -/
theorem lrelu_apply (s : (⟨S640000x128, .f32⟩ : BufTy).Contents (Elt Ideal)) (i : S640000x128.Idx) :
    Chain.lrelu (F := Ideal) s i = Cert.Spec.lrelu (s i) := rfl

/-- The attention rows at (e, k): the attention vector at (0, 0, k). -/
theorem attnRows_apply (a2 : (⟨S1x1x128, .f32⟩ : BufTy).Contents (Elt Ideal)) (e : Fin 640000) (k : Fin 128) :
    Chain.attnRows (F := Ideal) a2 (ix2 e k) = a2 (ix3 (0 : Fin 1) (0 : Fin 1) k) := by
  unfold Chain.attnRows
  refine (rowRepeat_apply _ _ _ e k).trans ?_
  exact shapeCast_11b_b_apply a2 _ k

/-- The reference's edge weights at edge e: the edge weight of the e-th rows of the two row tables and the attention
    vector. -/
theorem edgeW_apply (el er : (⟨Cert.ReferenceIdeal.S640000x128, .f32⟩ : BufTy).Contents (Elt Ideal)) (a2 : (⟨Cert.ReferenceIdeal.S1x1x128, .f32⟩ : BufTy).Contents (Elt Ideal)) (e : Fin 640000) :
    Cert.ReferenceIdeal.Chain.edgeW (F := Ideal) el er a2 (ValueIdx.ix1 e)
      = Cert.Spec.edge (fun k => el (ValueIdx.ix2 e k)) (fun k => er (ValueIdx.ix2 e k)) (fun k => a2 (ValueIdx.ix3 (0 : Fin 1) (0 : Fin 1) k)) := by
  unfold Chain.edgeW
  refine (sigm_apply _ _).trans ?_
  unfold Cert.Spec.edge
  refine congrArg Ideal.logistic ?_
  refine (mulf_apply _ _ _).trans ?_
  refine congrArg₂ (· * ·) ?_ ((sigm_apply _ _).trans (congrArg Ideal.logistic ?_))
  · refine (hostRowSum_apply _ _ _ _ e).trans ?_
    refine (congrArg (· + _) Ideal.ofBits_zero_f32).trans ((zero_add _).trans ?_)
    refine Finset.sum_congr rfl fun k _ => ?_
    refine (mulf_apply _ _ _).trans ?_
    exact congrArg₂ (· * ·) (lrelu_apply _ _) (attnRows_apply a2 e k)
  · refine (hostRowSum_apply _ _ _ _ e).trans ?_
    exact (congrArg (· + _) Ideal.ofBits_zero_f32).trans (zero_add _)

end Cert.ReferenceIdeal.EdgeValue

end
-- ==== Proof.BridgeEdge.lean ====
/-
  The edge weights agree, and with them the two programs' results. Region 1 leaves a [640000, 1] column holding at edge e
  the scalar weight of row e of the two gathered tables and the attention row; flattened, it is the reference's
  edge-weight vector, which holds the same scalar at e. The kernel program's attention row is the [1, 1, 128] argument
  cast to [1, 128], the reference's the same argument cast to [128]: entry k of either is the argument at (0, 0, k).
  With the projection, the row gathers and the tail shared, the kernel program's result term is the reference's.
-/
import proofs.«179195_j20641612824581_2_alg».proof.Proof.BridgeProj
import proofs.«179195_j20641612824581_2_alg».proof.Proof.EdgeRef
import proofs.«179195_j20641612824581_2_alg».proof.Proof.Spec
import Idealize.ShloMosaic.Lib.ValueLayout
import Idealize.ShloMosaic.Lib.Pipeline.Value

noncomputable section

namespace Cert.Bridge

open Idealize.ShloMosaic Idealize.ShloMosaic.ValueIdx

/-- The flattened edge-weight column of region 1 is the reference's edge-weight vector. -/
theorem edge_eq (el er : (⟨Cert.KernelIdeal.S640000x128, .f32⟩ : BufTy).Contents (Elt Ideal)) (a2 : (⟨Cert.KernelIdeal.S1x1x128, .f32⟩ : BufTy).Contents (Elt Ideal)) :
    shapeCast Cert.KernelIdeal.S640000
        (Cert.KernelIdeal.Region1.G Cert.Spec.edge el er
          (shapeCast Cert.KernelIdeal.S1x128 a2 Cert.KernelIdeal.Facts₀.shapeCasts_S1x1x128_S1x128))
        Cert.KernelIdeal.Facts₀.shapeCasts_S640000x1_S640000
      = Cert.ReferenceIdeal.Chain.edgeW (F := Ideal) el er a2 := by
  funext j
  obtain ⟨e, rfl⟩ : ∃ e : Fin 640000, j = ix1 e := ⟨j 0, eq_ix1 j⟩
  refine Eq.trans ?_ (Cert.ReferenceIdeal.EdgeValue.edgeW_apply el er a2 e).symm
  refine (shapeCast_apply _ _ (ix1 e) (ix2 e (0 : Fin 1)) ?_).trans ?_
  · rw [Shape.rowMajor_val_two, Shape.rowMajor_val_one]
    show e.val * 1 + 0 = e.val
    omega
  · show Cert.Spec.edge (fun k => el (ix2 e k)) (fun k => er (ix2 e k))
        (fun k => shapeCast Cert.KernelIdeal.S1x128 a2 Cert.KernelIdeal.Facts₀.shapeCasts_S1x1x128_S1x128 (ix2 (0 : Fin 1) k)) = _
    refine congrArg (Cert.Spec.edge (fun k => el (ix2 e k)) (fun k => er (ix2 e k))) (funext fun k => ?_)
    exact shapeCast_1ab_ab_apply a2 _ (0 : Fin 1) k

/-- The kernel program's result term is the reference's. -/
theorem kout_eq_out (a0 : (⟨Cert.KernelIdeal.S10000x128, .f32⟩ : BufTy).Contents (Elt Ideal)) (a1 : (⟨Cert.KernelIdeal.S128x128, .f32⟩ : BufTy).Contents (Elt Ideal)) (a2 : (⟨Cert.KernelIdeal.S1x1x128, .f32⟩ : BufTy).Contents (Elt Ideal))
    (a3 : (⟨Cert.KernelIdeal.S1, .f32⟩ : BufTy).Contents (Elt Ideal)) (a4 a5 : (⟨Cert.KernelIdeal.S640000, .i32⟩ : BufTy).Contents (Elt Ideal)) :
    Cert.KernelIdeal.KValue.kout Cert.Spec.edge a0 a1 a2 a3 a4 a5
      = Cert.ReferenceIdeal.Chain.out (F := Ideal) a0 a1 a2 a3 a4 a5 := by
  unfold Cert.KernelIdeal.KValue.kout Cert.ReferenceIdeal.Chain.out
  rw [tail_eq, rows16_eq, rows16_eq, projK_eq]
  exact congrArg (Cert.ReferenceIdeal.Chain.tail (F := Ideal) a0 a3 a4 a5) (edge_eq _ _ a2)

end Cert.Bridge

end
-- ==== Proof.RefRun.lean ====
/-
  The reference program read back as a straight line. Its @main is eighty-nine host operations once the outlined
  leaky rectifier (and the three-way select it calls in turn) is written out at the call site over that call's own
  buffers: twenty-three of @main's own before the call, the callee's seven, and fifty-nine after.
  Run in order from any buffer contents they leave the result buffer at Chain.out of the six arguments' contents,
  and the arguments' buffers as they were; every weakly fair execution of @main terminates in such a state.
-/
import proofs.«179195_j20641612824581_2_alg».proof.Proof.Gen.ReferenceIdeal
import proofs.«179195_j20641612824581_2_alg».proof.Proof.Chain
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the call written out: the rectifier's zero, its broadcast, the comparison s ≥ 0,
    the slope passed through unchanged, its broadcast, the product slope · s, and the select between s and that
    product, each over the call's own buffer; the select writes the buffer the call's result is read from. -/
abbrev ops : List (HloOp τ sig (Elt F)) :=
  [ unary main_arg1 main_v0 ((transpose S128x128 [1, 0] · transposes_S128x128_S128x128_1_0) : (⟨S128x128, .f32⟩ : BufTy).Contents (Elt F) → (⟨S128x128, .f32⟩ : BufTy).Contents (Elt F)),
    binary main_arg0 main_v0 main_v1 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    nullary main_c (constantI S_ 32 0#32),
    unary main_c main_v2 (broadcastInDim S640000 ![] bcast_S_S640000 : (⟨S_, .i32⟩ : BufTy).Contents (Elt F) → (⟨S640000, .i32⟩ : BufTy).Contents (Elt F)),
    binary main_arg4 main_v2 main_v3 (cmpi .slt : (⟨S640000, .i32⟩ : BufTy).Contents (Elt F) → (⟨S640000, .i32⟩ : BufTy).Contents (Elt F) → (⟨S640000, .i1⟩ : BufTy).Contents (Elt F)),
    nullary main_c_0 (constantI S_ 32 10000#32),
    unary main_c_0 main_v4 (broadcastInDim S640000 ![] bcast_S_S640000 : (⟨S_, .i32⟩ : BufTy).Contents (Elt F) → (⟨S640000, .i32⟩ : BufTy).Contents (Elt F)),
    binary main_arg4 main_v4 main_v5 (addi : (⟨S640000, .i32⟩ : BufTy).Contents (Elt F) → (⟨S640000, .i32⟩ : BufTy).Contents (Elt F) → (⟨S640000, .i32⟩ : BufTy).Contents (Elt F)),
    ternary main_v3 main_v5 main_arg4 main_v6 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v6 main_v7 (broadcastInDim S640000x1 ![0] bcast_S640000_S640000x1_0 : (⟨S640000, .i32⟩ : BufTy).Contents (Elt F) → (⟨S640000x1, .i32⟩ : BufTy).Contents (Elt F)),
    binary main_v1 main_v7 main_v8 ((fun x i => Host.gather gather_S10000x128_S640000x1_S640000x128_1_0_n_n_0_1_1128 x i) : (⟨S10000x128, .f32⟩ : BufTy).Contents (Elt F) → (⟨S640000x1, .i32⟩ : BufTy).Contents (Elt F) → (⟨S640000x128, .f32⟩ : BufTy).Contents (Elt F)),
    nullary main_c_1 (constantI S_ 32 0#32),
    unary main_c_1 main_v9 (broadcastInDim S640000 ![] bcast_S_S640000 : (⟨S_, .i32⟩ : BufTy).Contents (Elt F) → (⟨S640000, .i32⟩ : BufTy).Contents (Elt F)),
    binary main_arg5 main_v9 main_v10 (cmpi .slt : (⟨S640000, .i32⟩ : BufTy).Contents (Elt F) → (⟨S640000, .i32⟩ : BufTy).Contents (Elt F) → (⟨S640000, .i1⟩ : BufTy).Contents (Elt F)),
    nullary main_c_2 (constantI S_ 32 10000#32),
    unary main_c_2 main_v11 (broadcastInDim S640000 ![] bcast_S_S640000 : (⟨S_, .i32⟩ : BufTy).Contents (Elt F) → (⟨S640000, .i32⟩ : BufTy).Contents (Elt F)),
    binary main_arg5 main_v11 main_v12 (addi : (⟨S640000, .i32⟩ : BufTy).Contents (Elt F) → (⟨S640000, .i32⟩ : BufTy).Contents (Elt F) → (⟨S640000, .i32⟩ : BufTy).Contents (Elt F)),
    ternary main_v10 main_v12 main_arg5 main_v13 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v13 main_v14 (broadcastInDim S640000x1 ![0] bcast_S640000_S640000x1_0 : (⟨S640000, .i32⟩ : BufTy).Contents (Elt F) → (⟨S640000x1, .i32⟩ : BufTy).Contents (Elt F)),
    binary main_v1 main_v14 main_v15 ((fun x i => Host.gather gather_S10000x128_S640000x1_S640000x128_1_0_n_n_0_1_1128 x i) : (⟨S10000x128, .f32⟩ : BufTy).Contents (Elt F) → (⟨S640000x1, .i32⟩ : BufTy).Contents (Elt F) → (⟨S640000x128, .f32⟩ : BufTy).Contents (Elt F)),
    reshape main_arg2 main_v16 rfl shapeCasts_S1x1x128_S128,
    binary main_v8 main_v15 main_v17 (addf : (⟨S640000x128, .f32⟩ : BufTy).Contents (Elt F) → (⟨S640000x128, .f32⟩ : BufTy).Contents (Elt F) → (⟨S640000x128, .f32⟩ : BufTy).Contents (Elt F)),
    nullary main_cst (constant S_ .f32 0x3E4CCCCD#32),
    TRef.nullary main_call0.cst (constant S_ .f32 0x00000000#32),
    TRef.unary main_call0.cst main_call0.v0 (broadcastInDim S640000x128 ![] bcast_S_S640000x128),
    TRef.binary (.of main_v17) main_call0.v0 main_call0.v1 (cmpf .oge),
    TRef.unary (.of main_cst) main_call0.v2 id,
    TRef.unary main_call0.v2 main_call0.v3 (broadcastInDim S640000x128 ![] bcast_S_S640000x128),
    TRef.binary main_call0.v3 (.of main_v17) main_call0.v4 mulf,
    TRef.ternary main_call0.v1 (.of main_v17) main_call0.v4 main_call0.call0.v0 select,
    unary main_v16 main_v19 (broadcastInDim S1x128 ![1] bcast_S128_S1x128_1 : (⟨S128, .f32⟩ : BufTy).Contents (Elt F) → (⟨S1x128, .f32⟩ : BufTy).Contents (Elt F)),
    unary main_v19 main_v20 (broadcastInDim S640000x128 ![0, 1] bcast_S1x128_S640000x128_0_1 : (⟨S1x128, .f32⟩ : BufTy).Contents (Elt F) → (⟨S640000x128, .f32⟩ : BufTy).Contents (Elt F)),
    binary main_v18 main_v20 main_v21 (mulf : (⟨S640000x128, .f32⟩ : BufTy).Contents (Elt F) → (⟨S640000x128, .f32⟩ : BufTy).Contents (Elt F) → (⟨S640000x128, .f32⟩ : BufTy).Contents (Elt F)),
    nullary main_cst_3 (constant S_ .f32 0x00000000#32),
    binary main_v21 main_cst_3 main_v22 ((fun x v => Host.reduceAdd x v reducesTo_S640000x128_S640000_d1 h_S_) : (⟨S640000x128, .f32⟩ : BufTy).Contents (Elt F) → (⟨S_, .f32⟩ : BufTy).Contents (Elt F) → (⟨S640000, .f32⟩ : BufTy).Contents (Elt F)),
    binary main_v8 main_v15 main_v23 (mulf : (⟨S640000x128, .f32⟩ : BufTy).Contents (Elt F) → (⟨S640000x128, .f32⟩ : BufTy).Contents (Elt F) → (⟨S640000x128, .f32⟩ : BufTy).Contents (Elt F)),
    nullary main_cst_4 (constant S_ .f32 0x00000000#32),
    binary main_v23 main_cst_4 main_v24 ((fun x v => Host.reduceAdd x v reducesTo_S640000x128_S640000_d1 h_S_) : (⟨S640000x128, .f32⟩ : BufTy).Contents (Elt F) → (⟨S_, .f32⟩ : BufTy).Contents (Elt F) → (⟨S640000, .f32⟩ : BufTy).Contents (Elt F)),
    unary main_v24 main_v25 (Host.negf : (⟨S640000, .f32⟩ : BufTy).Contents (Elt F) → (⟨S640000, .f32⟩ : BufTy).Contents (Elt F)),
    unary main_v25 main_v26 (Host.exp : (⟨S640000, .f32⟩ : BufTy).Contents (Elt F) → (⟨S640000, .f32⟩ : BufTy).Contents (Elt F)),
    nullary main_cst_5 (constant S_ .f32 0x3F800000#32),
    unary main_cst_5 main_v27 (broadcastInDim S640000 ![] bcast_S_S640000 : (⟨S_, .f32⟩ : BufTy).Contents (Elt F) → (⟨S640000, .f32⟩ : BufTy).Contents (Elt F)),
    binary main_v27 main_v26 main_v28 (addf : (⟨S640000, .f32⟩ : BufTy).Contents (Elt F) → (⟨S640000, .f32⟩ : BufTy).Contents (Elt F) → (⟨S640000, .f32⟩ : BufTy).Contents (Elt F)),
    nullary main_cst_6 (constant S_ .f32 0x3F800000#32),
    unary main_cst_6 main_v29 (broadcastInDim S640000 ![] bcast_S_S640000 : (⟨S_, .f32⟩ : BufTy).Contents (Elt F) → (⟨S640000, .f32⟩ : BufTy).Contents (Elt F)),
    binary main_v29 main_v28 main_v30 (Host.divf : (⟨S640000, .f32⟩ : BufTy).Contents (Elt F) → (⟨S640000, .f32⟩ : BufTy).Contents (Elt F) → (⟨S640000, .f32⟩ : BufTy).Contents (Elt F)),
    binary main_v22 main_v30 main_v31 (mulf : (⟨S640000, .f32⟩ : BufTy).Contents (Elt F) → (⟨S640000, .f32⟩ : BufTy).Contents (Elt F) → (⟨S640000, .f32⟩ : BufTy).Contents (Elt F)),
    unary main_v31 main_v32 (Host.negf : (⟨S640000, .f32⟩ : BufTy).Contents (Elt F) → (⟨S640000, .f32⟩ : BufTy).Contents (Elt F)),
    unary main_v32 main_v33 (Host.exp : (⟨S640000, .f32⟩ : BufTy).Contents (Elt F) → (⟨S640000, .f32⟩ : BufTy).Contents (Elt F)),
    nullary main_cst_7 (constant S_ .f32 0x3F800000#32),
    unary main_cst_7 main_v34 (broadcastInDim S640000 ![] bcast_S_S640000 : (⟨S_, .f32⟩ : BufTy).Contents (Elt F) → (⟨S640000, .f32⟩ : BufTy).Contents (Elt F)),
    binary main_v34 main_v33 main_v35 (addf : (⟨S640000, .f32⟩ : BufTy).Contents (Elt F) → (⟨S640000, .f32⟩ : BufTy).Contents (Elt F) → (⟨S640000, .f32⟩ : BufTy).Contents (Elt F)),
    nullary main_cst_8 (constant S_ .f32 0x3F800000#32),
    unary main_cst_8 main_v36 (broadcastInDim S640000 ![] bcast_S_S640000 : (⟨S_, .f32⟩ : BufTy).Contents (Elt F) → (⟨S640000, .f32⟩ : BufTy).Contents (Elt F)),
    binary main_v36 main_v35 main_v37 (Host.divf : (⟨S640000, .f32⟩ : BufTy).Contents (Elt F) → (⟨S640000, .f32⟩ : BufTy).Contents (Elt F) → (⟨S640000, .f32⟩ : BufTy).Contents (Elt F)),
    nullary main_c_9 (constantI S_ 32 0#32),
    unary main_c_9 main_v38 (broadcastInDim S640000 ![] bcast_S_S640000 : (⟨S_, .i32⟩ : BufTy).Contents (Elt F) → (⟨S640000, .i32⟩ : BufTy).Contents (Elt F)),
    binary main_arg4 main_v38 main_v39 (cmpi .slt : (⟨S640000, .i32⟩ : BufTy).Contents (Elt F) → (⟨S640000, .i32⟩ : BufTy).Contents (Elt F) → (⟨S640000, .i1⟩ : BufTy).Contents (Elt F)),
    nullary main_c_10 (constantI S_ 32 10000#32),
    unary main_c_10 main_v40 (broadcastInDim S640000 ![] bcast_S_S640000 : (⟨S_, .i32⟩ : BufTy).Contents (Elt F) → (⟨S640000, .i32⟩ : BufTy).Contents (Elt F)),
    binary main_arg4 main_v40 main_v41 (addi : (⟨S640000, .i32⟩ : BufTy).Contents (Elt F) → (⟨S640000, .i32⟩ : BufTy).Contents (Elt F) → (⟨S640000, .i32⟩ : BufTy).Contents (Elt F)),
    ternary main_v39 main_v41 main_arg4 main_v42 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v42 main_v43 (broadcastInDim S640000x1 ![0] bcast_S640000_S640000x1_0 : (⟨S640000, .i32⟩ : BufTy).Contents (Elt F) → (⟨S640000x1, .i32⟩ : BufTy).Contents (Elt F)),
    binary main_arg0 main_v43 main_v44 ((fun x i => Host.gather gather_S10000x128_S640000x1_S640000x128_1_0_n_n_0_1_1128 x i) : (⟨S10000x128, .f32⟩ : BufTy).Contents (Elt F) → (⟨S640000x1, .i32⟩ : BufTy).Contents (Elt F) → (⟨S640000x128, .f32⟩ : BufTy).Contents (Elt F)),
    unary main_v37 main_v45 (broadcastInDim S640000x1 ![0] bcast_S640000_S640000x1_0 : (⟨S640000, .f32⟩ : BufTy).Contents (Elt F) → (⟨S640000x1, .f32⟩ : BufTy).Contents (Elt F)),
    unary main_v45 main_v46 (broadcastInDim S640000x128 ![0, 1] bcast_S640000x1_S640000x128_0_1 : (⟨S640000x1, .f32⟩ : BufTy).Contents (Elt F) → (⟨S640000x128, .f32⟩ : BufTy).Contents (Elt F)),
    binary main_v44 main_v46 main_v47 (mulf : (⟨S640000x128, .f32⟩ : BufTy).Contents (Elt F) → (⟨S640000x128, .f32⟩ : BufTy).Contents (Elt F) → (⟨S640000x128, .f32⟩ : BufTy).Contents (Elt F)),
    nullary main_cst_11 (constant S_ .f32 0x00000000#32),
    unary main_cst_11 main_v48 (broadcastInDim S10000x128 ![] bcast_S_S10000x128 : (⟨S_, .f32⟩ : BufTy).Contents (Elt F) → (⟨S10000x128, .f32⟩ : BufTy).Contents (Elt F)),
    unary main_arg5 main_v49 (broadcastInDim S640000x1 ![0] bcast_S640000_S640000x1_0 : (⟨S640000, .i32⟩ : BufTy).Contents (Elt F) → (⟨S640000x1, .i32⟩ : BufTy).Contents (Elt F)),
    ternary main_v48 main_v49 main_v47 main_v50 ((fun x i u => Host.scatterAdd scatter_S10000x128_S640000x1_S640000x128_1_0_0_1 x i u) : (⟨S10000x128, .f32⟩ : BufTy).Contents (Elt F) → (⟨S640000x1, .i32⟩ : BufTy).Contents (Elt F) → (⟨S640000x128, .f32⟩ : BufTy).Contents (Elt F) → (⟨S10000x128, .f32⟩ : BufTy).Contents (Elt F)),
    nullary main_cst_12 (constant S_ .f32 0x3F800000#32),
    unary main_cst_12 main_v51 (broadcastInDim S640000 ![] bcast_S_S640000 : (⟨S_, .f32⟩ : BufTy).Contents (Elt F) → (⟨S640000, .f32⟩ : BufTy).Contents (Elt F)),
    nullary main_cst_13 (constant S_ .f32 0x00000000#32),
    unary main_cst_13 main_v52 (broadcastInDim S10000 ![] bcast_S_S10000 : (⟨S_, .f32⟩ : BufTy).Contents (Elt F) → (⟨S10000, .f32⟩ : BufTy).Contents (Elt F)),
    unary main_arg5 main_v53 (broadcastInDim S640000x1 ![0] bcast_S640000_S640000x1_0 : (⟨S640000, .i32⟩ : BufTy).Contents (Elt F) → (⟨S640000x1, .i32⟩ : BufTy).Contents (Elt F)),
    ternary main_v52 main_v53 main_v51 main_v54 ((fun x i u => Host.scatterAdd scatter_S10000_S640000x1_S640000_n_0_0_1 x i u) : (⟨S10000, .f32⟩ : BufTy).Contents (Elt F) → (⟨S640000x1, .i32⟩ : BufTy).Contents (Elt F) → (⟨S640000, .f32⟩ : BufTy).Contents (Elt F) → (⟨S10000, .f32⟩ : BufTy).Contents (Elt F)),
    nullary main_cst_14 (constant S_ .f32 0x3F800000#32),
    unary main_cst_14 main_v55 (broadcastInDim S10000 ![] bcast_S_S10000 : (⟨S_, .f32⟩ : BufTy).Contents (Elt F) → (⟨S10000, .f32⟩ : BufTy).Contents (Elt F)),
    binary main_v54 main_v55 main_v56 (maximumf : (⟨S10000, .f32⟩ : BufTy).Contents (Elt F) → (⟨S10000, .f32⟩ : BufTy).Contents (Elt F) → (⟨S10000, .f32⟩ : BufTy).Contents (Elt F)),
    unary main_v56 main_v57 (broadcastInDim S10000x1 ![0] bcast_S10000_S10000x1_0 : (⟨S10000, .f32⟩ : BufTy).Contents (Elt F) → (⟨S10000x1, .f32⟩ : BufTy).Contents (Elt F)),
    unary main_v57 main_v58 (broadcastInDim S10000x128 ![0, 1] bcast_S10000x1_S10000x128_0_1 : (⟨S10000x1, .f32⟩ : BufTy).Contents (Elt F) → (⟨S10000x128, .f32⟩ : BufTy).Contents (Elt F)),
    binary main_v50 main_v58 main_v59 (Host.divf : (⟨S10000x128, .f32⟩ : BufTy).Contents (Elt F) → (⟨S10000x128, .f32⟩ : BufTy).Contents (Elt F) → (⟨S10000x128, .f32⟩ : BufTy).Contents (Elt F)),
    reshape main_arg3 main_v60 rfl shapeCasts_S1_S_,
    nullary main_cst_15 (constant S_ .f32 0x3F800000#32),
    binary main_cst_15 main_v60 main_v61 (addf : (⟨S_, .f32⟩ : BufTy).Contents (Elt F) → (⟨S_, .f32⟩ : BufTy).Contents (Elt F) → (⟨S_, .f32⟩ : BufTy).Contents (Elt F)),
    unary main_v61 main_v62 (broadcastInDim S10000x128 ![] bcast_S_S10000x128 : (⟨S_, .f32⟩ : BufTy).Contents (Elt F) → (⟨S10000x128, .f32⟩ : BufTy).Contents (Elt F)),
    binary main_v62 main_arg0 main_v63 (mulf : (⟨S10000x128, .f32⟩ : BufTy).Contents (Elt F) → (⟨S10000x128, .f32⟩ : BufTy).Contents (Elt F) → (⟨S10000x128, .f32⟩ : BufTy).Contents (Elt F)),
    binary main_v63 main_v59 main_v64 (addf : (⟨S10000x128, .f32⟩ : BufTy).Contents (Elt F) → (⟨S10000x128, .f32⟩ : BufTy).Contents (Elt F) → (⟨S10000x128, .f32⟩ : BufTy).Contents (Elt F)) ]

-- the two sides are trees of eighty-nine requests over large operation terms: comparing them exceeds the default budget
set_option maxHeartbeats 4000000 in
/-- @main is that straight line: its two windows run one after the other, the rectifier's body and the select's
    put in place of their calls. Sequencing in the free monad computes (a bind after a request moves under the
    request's continuation, a bind after a return applies), so the two sides unfold to the same tree of requests. -/
theorem main_eq (c : Dev nD) : main (F := F) c = seq ops := by
  rfl

/-- No TensorCore buffer of the reference is scoped: all are tensor values of @main or of the call. -/
theorem scopedRefs_eq : (Finset.univ.filter fun b : Ref sig .tc => b.isScoped) = ∅ := by decide
/-- The reference has no semaphore, so none is scoped. -/
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., reshape_bufs_sub .., binary_bufs_sub .., nullary_bufs_sub .., nullary_bufs_sub ..,
    unary_bufs_sub .., binary_bufs_sub .., unary_bufs_sub .., unary_bufs_sub .., binary_bufs_sub .., ternary_bufs_sub ..,
    unary_bufs_sub .., unary_bufs_sub .., binary_bufs_sub .., nullary_bufs_sub .., binary_bufs_sub .., binary_bufs_sub ..,
    nullary_bufs_sub .., binary_bufs_sub .., unary_bufs_sub .., unary_bufs_sub .., nullary_bufs_sub .., unary_bufs_sub ..,
    binary_bufs_sub .., nullary_bufs_sub .., unary_bufs_sub .., binary_bufs_sub .., binary_bufs_sub .., unary_bufs_sub ..,
    unary_bufs_sub .., nullary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., reshape_bufs_sub ..,
    nullary_bufs_sub .., binary_bufs_sub .., unary_bufs_sub .., binary_bufs_sub .., binary_bufs_sub ..⟩

-- eighty-nine results rewritten in one pass, the references' inequalities decided one by one
set_option maxHeartbeats 8000000 in
/-- The fold of the operations at the result buffer is Chain.out of the arguments' contents: each operation's
    result read at its own buffer is its function of its operands' contents, and at any other buffer what was
    there; the term this leaves is Chain.out with its five groupings unfolded (the call's buffers hold their
    values at the buffers' own types, so moving contents to and from them is the identity). -/
theorem out_eq (V : Valuation τ sig (Elt F)) :
    after ops V (main_v64 : DevRef τ sig)
      = Chain.out (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

/-- No operation writes argument 0's buffer. -/
theorem arg0_eq (V : Valuation τ sig (Elt F)) :
    after ops V (main_arg0 : DevRef τ sig) = V (main_arg0 : DevRef τ sig) := by
  after_results_simp

/-- No operation writes argument 1's buffer. -/
theorem arg1_eq (V : Valuation τ sig (Elt F)) :
    after ops V (main_arg1 : DevRef τ sig) = V (main_arg1 : DevRef τ sig) := by
  after_results_simp

/-- No operation writes argument 2's buffer. -/
theorem arg2_eq (V : Valuation τ sig (Elt F)) :
    after ops V (main_arg2 : DevRef τ sig) = V (main_arg2 : DevRef τ sig) := by
  after_results_simp

/-- No operation writes argument 3's buffer. -/
theorem arg3_eq (V : Valuation τ sig (Elt F)) :
    after ops V (main_arg3 : DevRef τ sig) = V (main_arg3 : DevRef τ sig) := by
  after_results_simp

/-- No operation writes argument 4's buffer. -/
theorem arg4_eq (V : Valuation τ sig (Elt F)) :
    after ops V (main_arg4 : DevRef τ sig) = V (main_arg4 : DevRef τ sig) := by
  after_results_simp

/-- No operation writes argument 5's buffer. -/
theorem arg5_eq (V : Valuation τ sig (Elt F)) :
    after ops V (main_arg5 : DevRef τ sig) = V (main_arg5 : DevRef τ sig) := by
  after_results_simp

/-- On the device, for any float values, from any memory with zero counters: every weakly fair execution of @main
    terminates with the result buffer at Chain.out of the arguments' launch contents and the six arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v64) = Chain.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v64).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _)⟩)
    (run_seq scopedRefs_eq scopedSems_eq defs main (fun _ => ops) main_eq (fun _ => ops_sub) m ρ)

end Cert.ReferenceIdeal.RefRun

end
-- ==== Proof.lean ====
/-
  Kernel against reference for a one-head graph-attention aggregation over 10000 nodes with 128 features and 640000
  edges, on the extended reals:
      proj = feat · Wᵀ,   u = proj[src],  v = proj[dst],
      w    = σ( (Σ_k lrelu(u_k + v_k) · a_k) · σ(Σ_k u_k · v_k) )        per edge,
      out  = (1 + eps) · feat + (Σ_{dst = n} feat[src] · w) / max(deg(n), 1).
  The kernel program computes proj in one tiled region (ten blocks of 1000 rows, a matrix product into a zero
  accumulator), rounds it to bf16 (the identity here), gathers rows on the host, computes w in a second tiled region (two
  hundred blocks of 3200 edges) and finishes on the host; the reference does all of it on the host. The two agree
  operation by operation: a tiled product is the whole product row by row, a lane sum from zero is the host's sum from
  zero, the logistic is 1 / (1 + exp(−x)) in both spellings, and the gathers, the scatter-adds and the final arithmetic
  are the same host operations on both sides. No step uses finiteness of the inputs.
  The three frames: the two kernel programs' are the launch-and-pipeline certificates of their printed texts; the
  reference's is its run with the result dropped. Nothing was rewritten when the kernel was idealized, so `preserves`
  has nothing to state.
-/
import proofs.«179195_j20641612824581_2_alg».proof.Defs
import proofs.«179195_j20641612824581_2_alg».proof.Proof.Gen.Kernel
import proofs.«179195_j20641612824581_2_alg».proof.Proof.Gen.Kernel.Frame
import proofs.«179195_j20641612824581_2_alg».proof.Proof.Gen.KernelIdeal
import proofs.«179195_j20641612824581_2_alg».proof.Proof.Gen.KernelIdeal.Frame
import proofs.«179195_j20641612824581_2_alg».proof.Proof.Gen.ReferenceIdeal
import proofs.«179195_j20641612824581_2_alg».proof.Proof.Gen.Pre_finite_inputs
import proofs.«179195_j20641612824581_2_alg».proof.Proof.KRun
import proofs.«179195_j20641612824581_2_alg».proof.Proof.KValue
import proofs.«179195_j20641612824581_2_alg».proof.Proof.DotKernel
import proofs.«179195_j20641612824581_2_alg».proof.Proof.EdgeKernel
import proofs.«179195_j20641612824581_2_alg».proof.Proof.BridgeEdge
import proofs.«179195_j20641612824581_2_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both programs end with the result array at the same term of arguments that agree: the kernel program's run names its
    result as the tail over region 1's edge weights over region 0's projection, the reference's run names its own as the
    composition of its operations, and the two terms are one function. -/
theorem algebraic : Cert.algebraic_KernelIdeal_ReferenceIdeal := by
  intro m ρ m' ρ' _ hagree
  refine ⟨fun c => Cert.KernelIdeal.KValue.kout Cert.Spec.edge (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KValue.result_eq Cert.Spec.edge m ρ
          Cert.KernelIdeal.DotValue.pay_apply Cert.KernelIdeal.EdgeValue.pay_apply c), (h c).2⟩)
      (Cert.KernelIdeal.KValue.run_value m ρ)
  · refine (θ_run Cert.ReferenceIdeal.defs _ _).mono (fun r h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2.1, (hagree c).2.2.2.2.2]
    exact (Cert.Bridge.kout_eq_out _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
